-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S1x128 : Shape := ⟨2, ![1, 128]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S1x1024 : Shape := ⟨2, ![1, 1024]⟩
abbrev S1 : Shape := ⟨1, ![1]⟩
abbrev S1x1 : Shape := ⟨2, ![1, 1]⟩
abbrev S_ : Shape := ⟨0, ![]⟩

abbrev nBuf : Space → Nat
  | .hbm => 17
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  inb_S1x128_S1x128_0_0 : ∀ a, (![0, 0] : Fin 2 → Nat) a + S1x128.size a ≤ S1x128.size a
  h_S1x128 : 0 < S1x128.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  transposes_S1024x256_p1_0_S256x1024 : S1024x256.Transposes [1, 0] S256x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x128_S1x128 : S1x128.ShapeCasts S1x128
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S256x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x256, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x256, .f32⟩
  | .hbm, ⟨51, _⟩ => ⟨S_, .f32⟩
  | .hbm, ⟨52, _⟩ => ⟨S8192, .f32⟩
  | .hbm, ⟨53, _⟩ => ⟨S1x8192, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S256x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_10 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_cst_13 : Ref sig .tc := ⟨.hbm, 72, rfl⟩
abbrev main_v56 : Ref sig .tc := ⟨.hbm, 73, rfl⟩
abbrev main_cst_14 : Ref sig .tc := ⟨.hbm, 74, rfl⟩
abbrev main_v57 : Ref sig .tc := ⟨.hbm, 75, rfl⟩
abbrev main_v58 : Ref sig .tc := ⟨.hbm, 76, rfl⟩
abbrev main_cst_15 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KRunA.lean ====
/-
  The kernel body of the pairwise Gaussian-kernel sums, run once on whole staging buffers.

  A grid point (i, j) of the 8 x 8 grid holds four 1024 x 256 row blocks — rows block i and block j of the
  first array, rows block i and block j of the second — and three 1 x 128 accumulators. The body first clears
  the accumulators when i = 0 and j = 0, then adds to each the sum over the 1024 x 1024 pairs of rows
  of exp(-(|a|^2 + |b|^2 - 2 a.b) / 65536). Here: the condition of the clearing branch in closed form over the
  grid, and the body's run in the case where the branch is taken (the first point), whatever the accumulators held.
-/
import proofs.«179846_j74603581931591_1_alg».proof.Proof.Gen.Kernel.Launch
import proofs.«179846_j74603581931591_1_alg».proof.Proof.Gen.Kernel.Skeleton
import proofs.«179846_j74603581931591_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The clearing branch's condition from the grid coordinates: both are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 64 points only. -/
theorem hcond0_0 : ∀ t : Fin cfg0.N, cond0_0 (grid0.coords t) ↔ t.val % 64 = 0 :=
  (by decide +kernel : ∀ t : Fin grid0.N, cond0_0 (grid0.coords t) ↔ t.val % 64 = 0)

/-- One staging buffer of each accumulator window, through which its contents are stated. -/
abbrev VO4 : View sig .tc .vmem S1x128 .f32 := (Memref.whole cc0_stg4_0 : Memref sig .tc .vmem S1x128 .f32).view
abbrev VO5 : View sig .tc .vmem S1x128 .f32 := (Memref.whole cc0_stg5_0 : Memref sig .tc .vmem S1x128 .f32).view
abbrev VO6 : View sig .tc .vmem S1x128 .f32 := (Memref.whole cc0_stg6_0 : Memref sig .tc .vmem S1x128 .f32).view

set_option maxHeartbeats 4000000 in
/-- The body where the accumulators are cleared first: from the four row blocks at their contents and the three
    accumulators at anything, it runs to the row blocks unchanged and each accumulator written by the listed stores. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 x2 x3 : Vec F S1024x256 .f32) :
    Σ' (L4 : List (View.Piece (Elt F) S1x128 .f32)) (L5 : List (View.Piece (Elt F) S1x128 .f32)), { L6 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__rbf_sum_kernel i arg2 harg2 arg3 harg3 arg4 harg4 arg5 harg5 arg6 harg6 arg7 harg7 arg8 harg8) K } := by
  refine ⟨?_, ?_, ?_, fun E K => ?run⟩
  case run =>
    simp only [cc0__rbf_sum_kernel_eq_skeleton]; unfold cc0__rbf_sum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.Kernel.Hand

end
-- ==== Proof.KRunB.lean ====
/-
  The body of the pairwise Gaussian-kernel sums at every point but the first: the clearing branch is not
  taken, so each accumulator is read at what the point before left in it and written back with this point's sum added.
-/
import proofs.«179846_j74603581931591_1_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the accumulators are kept: from the four row blocks and the three accumulators at their contents
    it runs to the row blocks unchanged and each accumulator written by the listed stores. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 x2 x3 : Vec F S1024x256 .f32) (xo4 xo5 xo6 : Vec F S1x128 .f32) :
    Σ' (L4 : List (View.Piece (Elt F) S1x128 .f32)) (L5 : List (View.Piece (Elt F) S1x128 .f32)), { L6 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__rbf_sum_kernel i arg2 harg2 arg3 harg3 arg4 harg4 arg5 harg5 arg6 harg6 arg7 harg7 arg8 harg8) K } := by
  refine ⟨?_, ?_, ?_, fun E K => ?run⟩
  case run =>
    simp only [cc0__rbf_sum_kernel_eq_skeleton]; unfold cc0__rbf_sum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.Kernel.Hand

end
-- ==== Proof.KOuts.lean ====
/-
  What the three accumulators hold after each grid point, the pipeline's proof data, and the body's obligation.

  The accumulators' block index never moves and the pipeline writes them back after the last point only, so each
  carries its running sum from point to point: after point 0 it holds the first tile's sum added to the cleared
  buffer, after point n + 1 what point n left plus that tile's sum. The four input windows read two arrays, each
  through a row block moving with the first grid coordinate and one moving with the second; the body leaves them
  in place.
-/
import proofs.«179846_j74603581931591_1_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (no host operation comes before the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)

/-! ## The stores cover each accumulator, in both cases -/

theorem cover0_A_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) (y : S1x128.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S1x128.size (by sl_kernel_rfl) y
theorem cover0_A_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) (y : S1x128.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S1x128.size (by sl_kernel_rfl) y
theorem cover0_A_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) (y : S1x128.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S1x128.size (by sl_kernel_rfl) y
theorem cover0_B_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 x3 xo4 xo5 xo6).1, y ∈ pc.1.set :=
  View.cover_of_tiledL (kernelRun0_B c i arg2 harg2 arg3 harg3 arg4 harg4 arg5 harg5 arg6 harg6 arg7 harg7 arg8 harg8 hc0 x0 x1 x2 x3 xo4 xo5 xo6).1 S1x128.size (by sl_kernel_rfl) y
theorem cover0_B_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 x3 xo4 xo5 xo6).2.1, y ∈ pc.1.set :=
  View.cover_of_tiledL (kernelRun0_B c i arg2 harg2 arg3 harg3 arg4 harg4 arg5 harg5 arg6 harg6 arg7 harg7 arg8 harg8 hc0 x0 x1 x2 x3 xo4 xo5 xo6).2.1 S1x128.size (by sl_kernel_rfl) y
theorem cover0_B_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 x3 xo4 xo5 xo6).2.2.1, y ∈ pc.1.set :=
  View.cover_of_tiledL (kernelRun0_B c i arg2 harg2 arg3 harg3 arg4 harg4 arg5 harg5 arg6 harg6 arg7 harg7 arg8 harg8 hc0 x0 x1 x2 x3 xo4 xo5 xo6).2.2.1 S1x128.size (by sl_kernel_rfl) y

/-! ## What each case leaves in each accumulator: its stores read back -/

def out0_A_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) : Vec F S1x128 .f32 :=
  VO4.read (Elt F) (VO4.writes (Elt F) VO4.junk (kernelRun0_A c i arg2 harg2 arg3 harg3 arg4 harg4 arg5 harg5 arg6 harg6 arg7 harg7 arg8 harg8 hc0 x0 x1 x2 x3).1)
def out0_A_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) : Vec F S1x128 .f32 :=
  VO5.read (Elt F) (VO5.writes (Elt F) VO5.junk (kernelRun0_A c i arg2 harg2 arg3 harg3 arg4 harg4 arg5 harg5 arg6 harg6 arg7 harg7 arg8 harg8 hc0 x0 x1 x2 x3).2.1)
def out0_A_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) : Vec F S1x128 .f32 :=
  VO6.read (Elt F) (VO6.writes (Elt F) VO6.junk (kernelRun0_A c i arg2 harg2 arg3 harg3 arg4 harg4 arg5 harg5 arg6 harg6 arg7 harg7 arg8 harg8 hc0 x0 x1 x2 x3).2.2.1)
def out0_B_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) : Vec F S1x128 .f32 :=
  VO4.read (Elt F) (VO4.writes (Elt F) VO4.junk (kernelRun0_B c i arg2 harg2 arg3 harg3 arg4 harg4 arg5 harg5 arg6 harg6 arg7 harg7 arg8 harg8 hc0 x0 x1 x2 x3 xo4 xo5 xo6).1)
def out0_B_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) : Vec F S1x128 .f32 :=
  VO5.read (Elt F) (VO5.writes (Elt F) VO5.junk (kernelRun0_B c i arg2 harg2 arg3 harg3 arg4 harg4 arg5 harg5 arg6 harg6 arg7 harg7 arg8 harg8 hc0 x0 x1 x2 x3 xo4 xo5 xo6).2.1)
def out0_B_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) : Vec F S1x128 .f32 :=
  VO6.read (Elt F) (VO6.writes (Elt F) VO6.junk (kernelRun0_B c i arg2 harg2 arg3 harg3 arg4 harg4 arg5 harg5 arg6 harg6 arg7 harg7 arg8 harg8 hc0 x0 x1 x2 x3 xo4 xo5 xo6).2.2.1)

/-- The three accumulators after the clearing case at point `t`. -/
def outA (c : Dev nD) (t : Fin cfg0.N) (h : cond0_0 (grid0.coords t)) : Vec F S1x128 .f32 × Vec F S1x128 .f32 × Vec F S1x128 .f32 :=
  (out0_A_4 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t),
   out0_A_5 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t),
   out0_A_6 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t))

/-- The three accumulators after the keeping case at point `t`, over what they held before. -/
def outB (c : Dev nD) (t : Fin cfg0.N) (h : ¬cond0_0 (grid0.coords t)) (p : Vec F S1x128 .f32 × Vec F S1x128 .f32 × Vec F S1x128 .f32) :
    Vec F S1x128 .f32 × Vec F S1x128 .f32 × Vec F S1x128 .f32 :=
  (out0_B_4 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) p.1 p.2.1 p.2.2,
   out0_B_5 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) p.1 p.2.1 p.2.2,
   out0_B_6 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) p.1 p.2.1 p.2.2)

/-- THE ACCUMULATION: what the three accumulators hold after the body at position `n`. -/
def outsAt0 (c : Dev nD) : (n : ℕ) → n < cfg0.N → Vec F S1x128 .f32 × Vec F S1x128 .f32 × Vec F S1x128 .f32
  | 0, hn => outA m c ⟨0, hn⟩ ((hcond0_0 ⟨0, hn⟩).mpr (Nat.zero_mod _))
  | n + 1, hn =>
    if h0 : (n + 1) % 64 = 0 then outA m c ⟨n + 1, hn⟩ ((hcond0_0 ⟨n + 1, hn⟩).mpr h0)
    else outB m c ⟨n + 1, hn⟩ (fun h => h0 ((hcond0_0 ⟨n + 1, hn⟩).mp h)) (outsAt0 c n (Nat.lt_of_succ_lt hn))

theorem outsAt0_A (c : Dev nD) (t : Fin cfg0.N) (h0 : t.val % 64 = 0) :
    outsAt0 m c t.val t.isLt = outA m c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 64 = 0) :
    outsAt0 m c t.val t.isLt = outB m c t (fun h => h0 ((hcond0_0 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its
    block and the accumulators at the running sums; the invariant the scoped rest and the generator register;
    nothing owed; each of the two arrays read through two windows is held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- At a point after the first each accumulator's buffer holds what the body left at the point before: it is not
    written back between (the write-back comes after the last point only). -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]
theorem before0_5_B (c : Dev nD) (t : Fin cfg0.N) (h0 : ¬t.val % 64 = 0) (d) :
    (dats m 0 c).before 5 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]
theorem before0_6_B (c : Dev nD) (t : Fin cfg0.N) (h0 : ¬t.val % 64 = 0) (d) :
    (dats m 0 c).before 6 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

end Cert.Kernel.Hand

end
-- ==== Proof.KBody.lean ====
/-
  The body's obligation at every grid point: the four input buffers hold their row blocks, the closed form of the
  clearing condition says which case the point is in, an accumulator read before it is covered holds what the point
  before left, and the case's run applies; its stores cover each accumulator's buffer.
-/
import proofs.«179846_j74603581931591_1_alg».proof.Proof.KOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 64 := lt_of_lt_of_eq t.isLt (show cfg0.N = 64 from N_0)
  by_cases h0 : t.val % 64 = 0
  · rw [outsAt0_A m c t h0]
    dsimp only [outA]
    unfold out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [outsAt0_B m c t h0]
    simp only [before0_4_B m c t h0, before0_5_B m c t h0, before0_6_B m c t h0]
    dsimp only [outB]
    unfold out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KShare.lean ====
/-
  The launch: the region, then the twelve host operations that slice each accumulator's first entry and combine the
  three sums.

  Two of the kernel's input windows read the first argument array and two the second, so each array's full share is
  dealt half and half to its two windows when the region is entered and put together again when it is left; the three
  accumulator arrays are held whole. After the region the host operations run over every unscoped buffer, the three
  result arrays at what the pipeline's last write-back left.
-/
import proofs.«179846_j74603581931591_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window, and the buffers behind them -/

/-- The pipeline's arrays one by one: each argument array at the two halves of the full share, the results whole. -/
theorem arrays_chain (c : Dev nD) (A : (w : Fin cfg0.W) → Buf (Elt F) ((cfg0.win w).arr.view.loc (c : Thread nD τ))) :
    ((dats m 0 c).arrays A : sProp 𝕄) = iprop(
      ((((c : Thread nD τ).loc main_arg0) ↦{fullShare.left} A 0)) ∗ ((((c : Thread nD τ).loc main_arg0) ↦{fullShare.right} A 1))
      ∗ ((((c : Thread nD τ).loc main_arg1) ↦{fullShare.left} A 2)) ∗ ((((c : Thread nD τ).loc main_arg1) ↦{fullShare.right} A 3))
      ∗ ((((c : Thread nD τ).loc main_v0_0) ↦{fullShare} A 4)) ∗ ((((c : Thread nD τ).loc main_v0_1) ↦{fullShare} A 5))
      ∗ ((((c : Thread nD τ).loc main_v0_2) ↦{fullShare} A 6))) := by
  unfold Dat.arrays
  rw [bigSep_W0]
  have e (w : Fin 7) : (cfg0.win w).arr.view.set = Finset.univ := (arr_whole0 w).set_eq_univ
  rw [e 0, e 2, e 4, e 5, e 6]
  rfl

/-- The five distinct buffers behind them, each whole. -/
theorem arrBufs_chain (c : Dev nD) (V' : (b : Ref sig .tc) → Buf (Elt F) ((c : Thread nD τ).loc b)) :
    (Pipeline.arrBufs spec0 c V' : sProp 𝕄) = iprop(
      (((c : Thread nD τ).loc main_arg0) ↦{fullShare} V' main_arg0) ∗ (((c : Thread nD τ).loc main_arg1) ↦{fullShare} V' main_arg1)
      ∗ (((c : Thread nD τ).loc main_v0_0) ↦{fullShare} V' main_v0_0) ∗ (((c : Thread nD τ).loc main_v0_1) ↦{fullShare} V' main_v0_1)
      ∗ (((c : Thread nD τ).loc main_v0_2) ↦{fullShare} V' main_v0_2)) := by
  unfold Pipeline.arrBufs
  rw [bigSep_eq_bigSepL_of_eq [main_arg0, main_arg1, main_v0_0, main_v0_1, main_v0_2] (by decide) (by decide)]
  rfl

/-- Entering: the buffers whole make the windows' arrays, each argument array split in two halves. -/
theorem arrays_split (c : Dev nD) (V' : (b : Ref sig .tc) → Buf (Elt F) ((c : Thread nD τ).loc b))
    (A : (w : Fin cfg0.W) → Buf (Elt F) ((cfg0.win w).arr.view.loc (c : Thread nD τ))) (hA : ∀ w, A w = V' (Pipeline.arrRef spec0 w)) :
    (Pipeline.arrBufs spec0 c V' : sProp 𝕄) ⊢ (dats m 0 c).arrays A := by
  rw [arrays_chain, arrBufs_chain, hA 0, hA 1, hA 2, hA 3, hA 4, hA 5, hA 6]
  iintro ⟨H0, H1, H4, H5, H6⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  isplitl [H0l]; · iexact H0l
  isplitl [H0r]; · iexact H0r
  isplitl [H1l]; · iexact H1l
  isplitl [H1r]; · iexact H1r
  isplitl [H4]; · iexact H4
  isplitl [H5]; · iexact H5
  iexact H6

/-- Leaving: the halves put together again. -/
theorem arrays_join (c : Dev nD) (V' : (b : Ref sig .tc) → Buf (Elt F) ((c : Thread nD τ).loc b))
    (A : (w : Fin cfg0.W) → Buf (Elt F) ((cfg0.win w).arr.view.loc (c : Thread nD τ))) (hA : ∀ w, A w = V' (Pipeline.arrRef spec0 w)) :
    ((dats m 0 c).arrays A : sProp 𝕄) ⊢ Pipeline.arrBufs spec0 c V' := by
  rw [arrays_chain, arrBufs_chain, hA 0, hA 1, hA 2, hA 3, hA 4, hA 5, hA 6]
  iintro ⟨H0l, H0r, H1l, H1r, H4, H5, H6⟩
  ihave H0 := (pointsTo_share (PosShare.mem_left_op_right fullShare)).2 $$ [H0l H0r]
  · isplitl [H0l] <;> iassumption
  ihave H1 := (pointsTo_share (PosShare.mem_left_op_right fullShare)).2 $$ [H1l H1r]
  · isplitl [H1l] <;> iassumption
  isplitl [H0]; · iexact H0
  isplitl [H1]; · iexact H1
  isplitl [H4]; · iexact H4
  isplitl [H5]; · iexact H5
  iexact H6

/-- ENTRY, the arrays' part: the core's unscoped buffers at `V'` are the pipeline's arrays and the unscoped rest. -/
theorem arrays_of_unscopedBufs (c : Dev nD) (V' : (b : Ref sig .tc) → Buf (Elt F) ((c : Thread nD τ).loc b))
    (A : (w : Fin cfg0.W) → Buf (Elt F) ((cfg0.win w).arr.view.loc (c : Thread nD τ))) (hA : ∀ w, A w = V' (Pipeline.arrRef spec0 w)) :
    (unscopedBufs c V' : sProp 𝕄) ⊢ iprop((dats m 0 c).arrays A ∗ Pipeline.unscopedRest spec0 c V') := by
  rw [Pipeline.unscopedBufs_split₀ cfgs (0 : Fin 1) winFacts₀0.arr_unscoped c V']
  exact sep_mono (arrays_split m c V' A hA) .rfl

/-- EXIT, the arrays' part: the arrays at `A` and the unscoped rest at `V'` are the unscoped buffers at any valuation
    that has the arrays at `A` and agrees with `V'` off them. -/
theorem unscopedBufs_of_arrays (c : Dev nD) (V' V'' : (b : Ref sig .tc) → Buf (Elt F) ((c : Thread nD τ).loc b))
    (A : (w : Fin cfg0.W) → Buf (Elt F) ((cfg0.win w).arr.view.loc (c : Thread nD τ))) (hA : ∀ w, A w = V'' (Pipeline.arrRef spec0 w))
    (hrest : ∀ b, b ∉ Finset.univ.image (Pipeline.arrRef spec0) → V'' b = V' b) :
    iprop((dats m 0 c).arrays A ∗ Pipeline.unscopedRest spec0 c V') ⊢ (unscopedBufs c V'' : sProp 𝕄) := by
  rw [Pipeline.unscopedBufs_split₀ cfgs (0 : Fin 1) winFacts₀0.arr_unscoped c V'']
  refine sep_mono (arrays_join m c V'' A hA) (Entails.of_eq ?_)
  unfold Pipeline.unscopedRest
  exact bigSep_congr fun b hb => by rw [hrest b (Finset.mem_sdiff.mp hb).2]

end Cert.Kernel.Hand

end
-- ==== Proof.KLaunch.lean ====
/-
  The run of the whole program: the region, then the host operations, from the launch memory to the return.

  The buffer contents at each boundary: as launched when the region is entered; at its exit the three result arrays at
  what the last write-back left and everything else untouched (an argument array is only read); after the twelve host
  operations, their composed result of those contents. Every weakly fair execution terminates with every unscoped buffer
  at those last contents.
-/
import proofs.«179846_j74603581931591_1_alg».proof.Proof.KShare

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the region's exit: the three result arrays at what the pipeline leaves, every other buffer as entered. -/
def W1 (c : Dev nD) : Valuation τ sig (Elt F) :=
  Function.update (Function.update (Function.update (W0 m ρ c)
    (Proc.devRef .tc main_v0_0) ((dats m 0 c).arrAt 4 cfg0.N))
    (Proc.devRef .tc main_v0_1) ((dats m 0 c).arrAt 5 cfg0.N))
    (Proc.devRef .tc main_v0_2) ((dats m 0 c).arrAt 6 cfg0.N)
abbrev V1 : (c : Dev nD) → (b : Ref sig .tc) → Buf (Elt F) ((c : Thread nD τ).loc b) := fun c b => W1 m ρ c b

theorem W1_of_ne (c : Dev nD) (b : Ref sig .tc) (h0 : b ≠ main_v0_0) (h1 : b ≠ main_v0_1) (h2 : b ≠ main_v0_2) :
    W1 m ρ c (Proc.devRef .tc b) = W0 m ρ c (Proc.devRef .tc b) := by
  unfold W1
  rw [Function.update_of_ne (StableHlo.devRef_ne_of_ne h2), Function.update_of_ne (StableHlo.devRef_ne_of_ne h1),
    Function.update_of_ne (StableHlo.devRef_ne_of_ne h0)]
theorem W1_v0_0 (c : Dev nD) : W1 m ρ c (Proc.devRef .tc main_v0_0) = (dats m 0 c).arrAt 4 cfg0.N := by
  unfold W1
  rw [Function.update_of_ne (StableHlo.devRef_ne_of_ne (by decide)), Function.update_of_ne (StableHlo.devRef_ne_of_ne (by decide)),
    Function.update_self]
theorem W1_v0_1 (c : Dev nD) : W1 m ρ c (Proc.devRef .tc main_v0_1) = (dats m 0 c).arrAt 5 cfg0.N := by
  unfold W1
  rw [Function.update_of_ne (StableHlo.devRef_ne_of_ne (by decide)), Function.update_self]
theorem W1_v0_2 (c : Dev nD) : W1 m ρ c (Proc.devRef .tc main_v0_2) = (dats m 0 c).arrAt 6 cfg0.N := by
  unfold W1
  rw [Function.update_self]

/-- At the exit each array holds what the pipeline leaves: an input what it held at entry. -/
theorem hF1 (c : Dev nD) : ∀ w : Fin cfg0.W, (dats m 0 c).arrAt w cfg0.N = V1 m ρ c (Pipeline.arrRef spec0 w)
  | ⟨0, _⟩ => ((dats m 0 c).arrAt_in 0 rfl _).trans (W1_of_ne m ρ c main_arg0 (by decide) (by decide) (by decide)).symm
  | ⟨1, _⟩ => ((dats m 0 c).arrAt_in 1 rfl _).trans (W1_of_ne m ρ c main_arg0 (by decide) (by decide) (by decide)).symm
  | ⟨2, _⟩ => ((dats m 0 c).arrAt_in 2 rfl _).trans (W1_of_ne m ρ c main_arg1 (by decide) (by decide) (by decide)).symm
  | ⟨3, _⟩ => ((dats m 0 c).arrAt_in 3 rfl _).trans (W1_of_ne m ρ c main_arg1 (by decide) (by decide) (by decide)).symm
  | ⟨4, _⟩ => (W1_v0_0 m ρ c).symm
  | ⟨5, _⟩ => (W1_v0_1 m ρ c).symm
  | ⟨6, _⟩ => (W1_v0_2 m ρ c).symm

/-- and every buffer that is no window's array what it held at entry. -/
theorem hrest1 (c : Dev nD) : ∀ b, b ∉ Finset.univ.image (Pipeline.arrRef spec0) → V1 m ρ c b = V0 m ρ c b := fun b hb =>
  W1_of_ne m ρ c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

/-- After the host operations. -/
abbrev W2 : Dev nD → Valuation τ sig (Elt F) := fun c => StableHlo.after hostOps1 (W1 m ρ c)

/-! ## The segments -/

abbrev adm : (p : Fin 1) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W2 m ρ c) ∗ ∃ r, prngReg c r)

set_option backward.isDefEq.respectTransparency.types false in
/-- THE REGION over the thread state: entered from every unscoped buffer as launched, left with them at the exit
    contents; the generator register into the invariant and out; nothing owed; no semaphore of the kernel's own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := arrays_of_unscopedBufs m c (V0 m ρ c) ((dats m 0 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays m c (V0 m ρ c) (V1 m ρ c) ((dats m 0 c).arrAt · cfg0.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment over the unscoped references. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

abbrev segs : List (Pipeline.Seg (pcfgs (F := F)) adm (dats m) () defs₀ 𝒱₀ L lv) :=
  [ .region (reg0 m ρ), .host (hseg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (dats m) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => by
      show iprop(StableHlo.held (c : Thread nD τ) (Pipeline.ucRefs τ sig) (W2 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

end Cert.Kernel.Hand

end
-- ==== Proof.KFrame.lean ====
/-
  The frame: every weakly fair execution of the program terminates, nothing faulting, and the two argument arrays end
  as launched — no host operation writes one, and the region only reads them.
-/
import proofs.«179846_j74603581931591_1_alg».proof.Proof.KLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg0) := W1_of_ne m ρ c main_arg0 (by decide) (by decide) (by decide)
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg1) := W1_of_ne m ρ c main_arg1 (by decide) (by decide) (by decide)
    _ = m ((c : Thread nD τ).loc main_arg1) := rfl

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W2_main_arg0 m ρ c),
       (h c _ (mem_uc main_arg1 (by decide))).trans (W2_main_arg1 m ρ c)⟩)
    (run_main m ρ)

end Cert.Kernel.Hand

end
-- ==== Proof.KIRunA.lean ====
/-
  The kernel body of the pairwise Gaussian-kernel sums, run once on whole staging buffers.

  A grid point (i, j) of the 8 x 8 grid holds four 1024 x 256 row blocks — rows block i and block j of the
  first array, rows block i and block j of the second — and three 1 x 128 accumulators. The body first clears
  the accumulators when i = 0 and j = 0, then adds to each the sum over the 1024 x 1024 pairs of rows
  of exp(-(|a|^2 + |b|^2 - 2 a.b) / 65536). Here: the condition of the clearing branch in closed form over the
  grid, and the body's run in the case where the branch is taken (the first point), whatever the accumulators held.
-/
import proofs.«179846_j74603581931591_1_alg».proof.Proof.Gen.KernelIdeal.Launch
import proofs.«179846_j74603581931591_1_alg».proof.Proof.Gen.KernelIdeal.Skeleton
import proofs.«179846_j74603581931591_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The clearing branch's condition from the grid coordinates: both are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 64 points only. -/
theorem hcond0_0 : ∀ t : Fin cfg0.N, cond0_0 (grid0.coords t) ↔ t.val % 64 = 0 :=
  (by decide +kernel : ∀ t : Fin grid0.N, cond0_0 (grid0.coords t) ↔ t.val % 64 = 0)

/-- One staging buffer of each accumulator window, through which its contents are stated. -/
abbrev VO4 : View sig .tc .vmem S1x128 .f32 := (Memref.whole cc0_stg4_0 : Memref sig .tc .vmem S1x128 .f32).view
abbrev VO5 : View sig .tc .vmem S1x128 .f32 := (Memref.whole cc0_stg5_0 : Memref sig .tc .vmem S1x128 .f32).view
abbrev VO6 : View sig .tc .vmem S1x128 .f32 := (Memref.whole cc0_stg6_0 : Memref sig .tc .vmem S1x128 .f32).view

set_option maxHeartbeats 4000000 in
/-- The body where the accumulators are cleared first: from the four row blocks at their contents and the three
    accumulators at anything, it runs to the row blocks unchanged and each accumulator written by the listed stores. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 x2 x3 : Vec F S1024x256 .f32) :
    Σ' (L4 : List (View.Piece (Elt F) S1x128 .f32)) (L5 : List (View.Piece (Elt F) S1x128 .f32)), { L6 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__rbf_sum_kernel i arg2 harg2 arg3 harg3 arg4 harg4 arg5 harg5 arg6 harg6 arg7 harg7 arg8 harg8) K } := by
  refine ⟨?_, ?_, ?_, fun E K => ?run⟩
  case run =>
    simp only [cc0__rbf_sum_kernel_eq_skeleton]; unfold cc0__rbf_sum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.KernelIdeal.Hand

end
-- ==== Proof.KIRunB.lean ====
/-
  The body of the pairwise Gaussian-kernel sums at every point but the first: the clearing branch is not
  taken, so each accumulator is read at what the point before left in it and written back with this point's sum added.
-/
import proofs.«179846_j74603581931591_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the accumulators are kept: from the four row blocks and the three accumulators at their contents
    it runs to the row blocks unchanged and each accumulator written by the listed stores. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 x2 x3 : Vec F S1024x256 .f32) (xo4 xo5 xo6 : Vec F S1x128 .f32) :
    Σ' (L4 : List (View.Piece (Elt F) S1x128 .f32)) (L5 : List (View.Piece (Elt F) S1x128 .f32)), { L6 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)) -∗ K ⟨⟩))
          ⊢ wp frame (wpE (defs₀ (F := F)) Variants.none c none) E (cc0__rbf_sum_kernel i arg2 harg2 arg3 harg3 arg4 harg4 arg5 harg5 arg6 harg6 arg7 harg7 arg8 harg8) K } := by
  refine ⟨?_, ?_, ?_, fun E K => ?run⟩
  case run =>
    simp only [cc0__rbf_sum_kernel_eq_skeleton]; unfold cc0__rbf_sum_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.KernelIdeal.Hand

end
-- ==== Proof.KIOuts.lean ====
/-
  What the three accumulators hold after each grid point, the pipeline's proof data, and the body's obligation.

  The accumulators' block index never moves and the pipeline writes them back after the last point only, so each
  carries its running sum from point to point: after point 0 it holds the first tile's sum added to the cleared
  buffer, after point n + 1 what point n left plus that tile's sum. The four input windows read two arrays, each
  through a row block moving with the first grid coordinate and one moving with the second; the body leaves them
  in place.
-/
import proofs.«179846_j74603581931591_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (no host operation comes before the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)

/-! ## The stores cover each accumulator, in both cases -/

theorem cover0_A_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) (y : S1x128.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S1x128.size (by sl_kernel_rfl) y
theorem cover0_A_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) (y : S1x128.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S1x128.size (by sl_kernel_rfl) y
theorem cover0_A_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) (y : S1x128.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S1x128.size (by sl_kernel_rfl) y
theorem cover0_B_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 x3 xo4 xo5 xo6).1, y ∈ pc.1.set :=
  View.cover_of_tiledL (kernelRun0_B c i arg2 harg2 arg3 harg3 arg4 harg4 arg5 harg5 arg6 harg6 arg7 harg7 arg8 harg8 hc0 x0 x1 x2 x3 xo4 xo5 xo6).1 S1x128.size (by sl_kernel_rfl) y
theorem cover0_B_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 x3 xo4 xo5 xo6).2.1, y ∈ pc.1.set :=
  View.cover_of_tiledL (kernelRun0_B c i arg2 harg2 arg3 harg3 arg4 harg4 arg5 harg5 arg6 harg6 arg7 harg7 arg8 harg8 hc0 x0 x1 x2 x3 xo4 xo5 xo6).2.1 S1x128.size (by sl_kernel_rfl) y
theorem cover0_B_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) (y : S1x128.Idx) :
    ∃ pc ∈ (kernelRun0_B c i arg2 harg2 arg3 harg3 arg4 harg4 arg5 harg5 arg6 harg6 arg7 harg7 arg8 harg8 hc0 x0 x1 x2 x3 xo4 xo5 xo6).2.2.1, y ∈ pc.1.set :=
  View.cover_of_tiledL (kernelRun0_B c i arg2 harg2 arg3 harg3 arg4 harg4 arg5 harg5 arg6 harg6 arg7 harg7 arg8 harg8 hc0 x0 x1 x2 x3 xo4 xo5 xo6).2.2.1 S1x128.size (by sl_kernel_rfl) y

/-! ## What each case leaves in each accumulator: its stores read back -/

def out0_A_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) : Vec F S1x128 .f32 :=
  VO4.read (Elt F) (VO4.writes (Elt F) VO4.junk (kernelRun0_A c i arg2 harg2 arg3 harg3 arg4 harg4 arg5 harg5 arg6 harg6 arg7 harg7 arg8 harg8 hc0 x0 x1 x2 x3).1)
def out0_A_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) : Vec F S1x128 .f32 :=
  VO5.read (Elt F) (VO5.writes (Elt F) VO5.junk (kernelRun0_A c i arg2 harg2 arg3 harg3 arg4 harg4 arg5 harg5 arg6 harg6 arg7 harg7 arg8 harg8 hc0 x0 x1 x2 x3).2.1)
def out0_A_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) : Vec F S1x128 .f32 :=
  VO6.read (Elt F) (VO6.writes (Elt F) VO6.junk (kernelRun0_A c i arg2 harg2 arg3 harg3 arg4 harg4 arg5 harg5 arg6 harg6 arg7 harg7 arg8 harg8 hc0 x0 x1 x2 x3).2.2.1)
def out0_B_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) : Vec F S1x128 .f32 :=
  VO4.read (Elt F) (VO4.writes (Elt F) VO4.junk (kernelRun0_B c i arg2 harg2 arg3 harg3 arg4 harg4 arg5 harg5 arg6 harg6 arg7 harg7 arg8 harg8 hc0 x0 x1 x2 x3 xo4 xo5 xo6).1)
def out0_B_5 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) : Vec F S1x128 .f32 :=
  VO5.read (Elt F) (VO5.writes (Elt F) VO5.junk (kernelRun0_B c i arg2 harg2 arg3 harg3 arg4 harg4 arg5 harg5 arg6 harg6 arg7 harg7 arg8 harg8 hc0 x0 x1 x2 x3 xo4 xo5 xo6).2.1)
def out0_B_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) : Vec F S1x128 .f32 :=
  VO6.read (Elt F) (VO6.writes (Elt F) VO6.junk (kernelRun0_B c i arg2 harg2 arg3 harg3 arg4 harg4 arg5 harg5 arg6 harg6 arg7 harg7 arg8 harg8 hc0 x0 x1 x2 x3 xo4 xo5 xo6).2.2.1)

/-- The three accumulators after the clearing case at point `t`. -/
def outA (c : Dev nD) (t : Fin cfg0.N) (h : cond0_0 (grid0.coords t)) : Vec F S1x128 .f32 × Vec F S1x128 .f32 × Vec F S1x128 .f32 :=
  (out0_A_4 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t),
   out0_A_5 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t),
   out0_A_6 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t))

/-- The three accumulators after the keeping case at point `t`, over what they held before. -/
def outB (c : Dev nD) (t : Fin cfg0.N) (h : ¬cond0_0 (grid0.coords t)) (p : Vec F S1x128 .f32 × Vec F S1x128 .f32 × Vec F S1x128 .f32) :
    Vec F S1x128 .f32 × Vec F S1x128 .f32 × Vec F S1x128 .f32 :=
  (out0_B_4 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) p.1 p.2.1 p.2.2,
   out0_B_5 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) p.1 p.2.1 p.2.2,
   out0_B_6 c (grid0.coords t) (ms0 t) (hs0 t) (ms1 t) (hs1 t) (ms2 t) (hs2 t) (ms3 t) (hs3 t) (ms4 t) (hs4 t) (ms5 t) (hs5 t) (ms6 t) (hs6 t) h (iblk m c 0 t) (iblk m c 1 t) (iblk m c 2 t) (iblk m c 3 t) p.1 p.2.1 p.2.2)

/-- THE ACCUMULATION: what the three accumulators hold after the body at position `n`. -/
def outsAt0 (c : Dev nD) : (n : ℕ) → n < cfg0.N → Vec F S1x128 .f32 × Vec F S1x128 .f32 × Vec F S1x128 .f32
  | 0, hn => outA m c ⟨0, hn⟩ ((hcond0_0 ⟨0, hn⟩).mpr (Nat.zero_mod _))
  | n + 1, hn =>
    if h0 : (n + 1) % 64 = 0 then outA m c ⟨n + 1, hn⟩ ((hcond0_0 ⟨n + 1, hn⟩).mpr h0)
    else outB m c ⟨n + 1, hn⟩ (fun h => h0 ((hcond0_0 ⟨n + 1, hn⟩).mp h)) (outsAt0 c n (Nat.lt_of_succ_lt hn))

theorem outsAt0_A (c : Dev nD) (t : Fin cfg0.N) (h0 : t.val % 64 = 0) :
    outsAt0 m c t.val t.isLt = outA m c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 64 = 0) :
    outsAt0 m c t.val t.isLt = outB m c t (fun h => h0 ((hcond0_0 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body each input's buffer at its
    block and the accumulators at the running sums; the invariant the scoped rest and the generator register;
    nothing owed; each of the two arrays read through two windows is held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- At a point after the first each accumulator's buffer holds what the body left at the point before: it is not
    written back between (the write-back comes after the last point only). -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]
theorem before0_5_B (c : Dev nD) (t : Fin cfg0.N) (h0 : ¬t.val % 64 = 0) (d) :
    (dats m 0 c).before 5 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]
theorem before0_6_B (c : Dev nD) (t : Fin cfg0.N) (h0 : ¬t.val % 64 = 0) (d) :
    (dats m 0 c).before 6 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

end Cert.KernelIdeal.Hand

end
-- ==== Proof.KIBody.lean ====
/-
  The body's obligation at every grid point: the four input buffers hold their row blocks, the closed form of the
  clearing condition says which case the point is in, an accumulator read before it is covered holds what the point
  before left, and the case's run applies; its stores cover each accumulator's buffer.
-/
import proofs.«179846_j74603581931591_1_alg».proof.Proof.KIOuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 64 := lt_of_lt_of_eq t.isLt (show cfg0.N = 64 from N_0)
  by_cases h0 : t.val % 64 = 0
  · rw [outsAt0_A m c t h0]
    dsimp only [outA]
    unfold out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [outsAt0_B m c t h0]
    simp only [before0_4_B m c t h0, before0_5_B m c t h0, before0_6_B m c t h0]
    dsimp only [outB]
    unfold out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIShare.lean ====
/-
  The launch: the region, then the twelve host operations that slice each accumulator's first entry and combine the
  three sums.

  Two of the kernel's input windows read the first argument array and two the second, so each array's full share is
  dealt half and half to its two windows when the region is entered and put together again when it is left; the three
  accumulator arrays are held whole. After the region the host operations run over every unscoped buffer, the three
  result arrays at what the pipeline's last write-back left.
-/
import proofs.«179846_j74603581931591_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window, and the buffers behind them -/

/-- The pipeline's arrays one by one: each argument array at the two halves of the full share, the results whole. -/
theorem arrays_chain (c : Dev nD) (A : (w : Fin cfg0.W) → Buf (Elt F) ((cfg0.win w).arr.view.loc (c : Thread nD τ))) :
    ((dats m 0 c).arrays A : sProp 𝕄) = iprop(
      ((((c : Thread nD τ).loc main_arg0) ↦{fullShare.left} A 0)) ∗ ((((c : Thread nD τ).loc main_arg0) ↦{fullShare.right} A 1))
      ∗ ((((c : Thread nD τ).loc main_arg1) ↦{fullShare.left} A 2)) ∗ ((((c : Thread nD τ).loc main_arg1) ↦{fullShare.right} A 3))
      ∗ ((((c : Thread nD τ).loc main_v0_0) ↦{fullShare} A 4)) ∗ ((((c : Thread nD τ).loc main_v0_1) ↦{fullShare} A 5))
      ∗ ((((c : Thread nD τ).loc main_v0_2) ↦{fullShare} A 6))) := by
  unfold Dat.arrays
  rw [bigSep_W0]
  have e (w : Fin 7) : (cfg0.win w).arr.view.set = Finset.univ := (arr_whole0 w).set_eq_univ
  rw [e 0, e 2, e 4, e 5, e 6]
  rfl

/-- The five distinct buffers behind them, each whole. -/
theorem arrBufs_chain (c : Dev nD) (V' : (b : Ref sig .tc) → Buf (Elt F) ((c : Thread nD τ).loc b)) :
    (Pipeline.arrBufs spec0 c V' : sProp 𝕄) = iprop(
      (((c : Thread nD τ).loc main_arg0) ↦{fullShare} V' main_arg0) ∗ (((c : Thread nD τ).loc main_arg1) ↦{fullShare} V' main_arg1)
      ∗ (((c : Thread nD τ).loc main_v0_0) ↦{fullShare} V' main_v0_0) ∗ (((c : Thread nD τ).loc main_v0_1) ↦{fullShare} V' main_v0_1)
      ∗ (((c : Thread nD τ).loc main_v0_2) ↦{fullShare} V' main_v0_2)) := by
  unfold Pipeline.arrBufs
  rw [bigSep_eq_bigSepL_of_eq [main_arg0, main_arg1, main_v0_0, main_v0_1, main_v0_2] (by decide) (by decide)]
  rfl

/-- Entering: the buffers whole make the windows' arrays, each argument array split in two halves. -/
theorem arrays_split (c : Dev nD) (V' : (b : Ref sig .tc) → Buf (Elt F) ((c : Thread nD τ).loc b))
    (A : (w : Fin cfg0.W) → Buf (Elt F) ((cfg0.win w).arr.view.loc (c : Thread nD τ))) (hA : ∀ w, A w = V' (Pipeline.arrRef spec0 w)) :
    (Pipeline.arrBufs spec0 c V' : sProp 𝕄) ⊢ (dats m 0 c).arrays A := by
  rw [arrays_chain, arrBufs_chain, hA 0, hA 1, hA 2, hA 3, hA 4, hA 5, hA 6]
  iintro ⟨H0, H1, H4, H5, H6⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  isplitl [H0l]; · iexact H0l
  isplitl [H0r]; · iexact H0r
  isplitl [H1l]; · iexact H1l
  isplitl [H1r]; · iexact H1r
  isplitl [H4]; · iexact H4
  isplitl [H5]; · iexact H5
  iexact H6

/-- Leaving: the halves put together again. -/
theorem arrays_join (c : Dev nD) (V' : (b : Ref sig .tc) → Buf (Elt F) ((c : Thread nD τ).loc b))
    (A : (w : Fin cfg0.W) → Buf (Elt F) ((cfg0.win w).arr.view.loc (c : Thread nD τ))) (hA : ∀ w, A w = V' (Pipeline.arrRef spec0 w)) :
    ((dats m 0 c).arrays A : sProp 𝕄) ⊢ Pipeline.arrBufs spec0 c V' := by
  rw [arrays_chain, arrBufs_chain, hA 0, hA 1, hA 2, hA 3, hA 4, hA 5, hA 6]
  iintro ⟨H0l, H0r, H1l, H1r, H4, H5, H6⟩
  ihave H0 := (pointsTo_share (PosShare.mem_left_op_right fullShare)).2 $$ [H0l H0r]
  · isplitl [H0l] <;> iassumption
  ihave H1 := (pointsTo_share (PosShare.mem_left_op_right fullShare)).2 $$ [H1l H1r]
  · isplitl [H1l] <;> iassumption
  isplitl [H0]; · iexact H0
  isplitl [H1]; · iexact H1
  isplitl [H4]; · iexact H4
  isplitl [H5]; · iexact H5
  iexact H6

/-- ENTRY, the arrays' part: the core's unscoped buffers at `V'` are the pipeline's arrays and the unscoped rest. -/
theorem arrays_of_unscopedBufs (c : Dev nD) (V' : (b : Ref sig .tc) → Buf (Elt F) ((c : Thread nD τ).loc b))
    (A : (w : Fin cfg0.W) → Buf (Elt F) ((cfg0.win w).arr.view.loc (c : Thread nD τ))) (hA : ∀ w, A w = V' (Pipeline.arrRef spec0 w)) :
    (unscopedBufs c V' : sProp 𝕄) ⊢ iprop((dats m 0 c).arrays A ∗ Pipeline.unscopedRest spec0 c V') := by
  rw [Pipeline.unscopedBufs_split₀ cfgs (0 : Fin 1) winFacts₀0.arr_unscoped c V']
  exact sep_mono (arrays_split m c V' A hA) .rfl

/-- EXIT, the arrays' part: the arrays at `A` and the unscoped rest at `V'` are the unscoped buffers at any valuation
    that has the arrays at `A` and agrees with `V'` off them. -/
theorem unscopedBufs_of_arrays (c : Dev nD) (V' V'' : (b : Ref sig .tc) → Buf (Elt F) ((c : Thread nD τ).loc b))
    (A : (w : Fin cfg0.W) → Buf (Elt F) ((cfg0.win w).arr.view.loc (c : Thread nD τ))) (hA : ∀ w, A w = V'' (Pipeline.arrRef spec0 w))
    (hrest : ∀ b, b ∉ Finset.univ.image (Pipeline.arrRef spec0) → V'' b = V' b) :
    iprop((dats m 0 c).arrays A ∗ Pipeline.unscopedRest spec0 c V') ⊢ (unscopedBufs c V'' : sProp 𝕄) := by
  rw [Pipeline.unscopedBufs_split₀ cfgs (0 : Fin 1) winFacts₀0.arr_unscoped c V'']
  refine sep_mono (arrays_join m c V'' A hA) (Entails.of_eq ?_)
  unfold Pipeline.unscopedRest
  exact bigSep_congr fun b hb => by rw [hrest b (Finset.mem_sdiff.mp hb).2]

end Cert.KernelIdeal.Hand

end
-- ==== Proof.KILaunch.lean ====
/-
  The run of the whole program: the region, then the host operations, from the launch memory to the return.

  The buffer contents at each boundary: as launched when the region is entered; at its exit the three result arrays at
  what the last write-back left and everything else untouched (an argument array is only read); after the twelve host
  operations, their composed result of those contents. Every weakly fair execution terminates with every unscoped buffer
  at those last contents.
-/
import proofs.«179846_j74603581931591_1_alg».proof.Proof.KIShare

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the region's exit: the three result arrays at what the pipeline leaves, every other buffer as entered. -/
def W1 (c : Dev nD) : Valuation τ sig (Elt F) :=
  Function.update (Function.update (Function.update (W0 m ρ c)
    (Proc.devRef .tc main_v0_0) ((dats m 0 c).arrAt 4 cfg0.N))
    (Proc.devRef .tc main_v0_1) ((dats m 0 c).arrAt 5 cfg0.N))
    (Proc.devRef .tc main_v0_2) ((dats m 0 c).arrAt 6 cfg0.N)
abbrev V1 : (c : Dev nD) → (b : Ref sig .tc) → Buf (Elt F) ((c : Thread nD τ).loc b) := fun c b => W1 m ρ c b

theorem W1_of_ne (c : Dev nD) (b : Ref sig .tc) (h0 : b ≠ main_v0_0) (h1 : b ≠ main_v0_1) (h2 : b ≠ main_v0_2) :
    W1 m ρ c (Proc.devRef .tc b) = W0 m ρ c (Proc.devRef .tc b) := by
  unfold W1
  rw [Function.update_of_ne (StableHlo.devRef_ne_of_ne h2), Function.update_of_ne (StableHlo.devRef_ne_of_ne h1),
    Function.update_of_ne (StableHlo.devRef_ne_of_ne h0)]
theorem W1_v0_0 (c : Dev nD) : W1 m ρ c (Proc.devRef .tc main_v0_0) = (dats m 0 c).arrAt 4 cfg0.N := by
  unfold W1
  rw [Function.update_of_ne (StableHlo.devRef_ne_of_ne (by decide)), Function.update_of_ne (StableHlo.devRef_ne_of_ne (by decide)),
    Function.update_self]
theorem W1_v0_1 (c : Dev nD) : W1 m ρ c (Proc.devRef .tc main_v0_1) = (dats m 0 c).arrAt 5 cfg0.N := by
  unfold W1
  rw [Function.update_of_ne (StableHlo.devRef_ne_of_ne (by decide)), Function.update_self]
theorem W1_v0_2 (c : Dev nD) : W1 m ρ c (Proc.devRef .tc main_v0_2) = (dats m 0 c).arrAt 6 cfg0.N := by
  unfold W1
  rw [Function.update_self]

/-- At the exit each array holds what the pipeline leaves: an input what it held at entry. -/
theorem hF1 (c : Dev nD) : ∀ w : Fin cfg0.W, (dats m 0 c).arrAt w cfg0.N = V1 m ρ c (Pipeline.arrRef spec0 w)
  | ⟨0, _⟩ => ((dats m 0 c).arrAt_in 0 rfl _).trans (W1_of_ne m ρ c main_arg0 (by decide) (by decide) (by decide)).symm
  | ⟨1, _⟩ => ((dats m 0 c).arrAt_in 1 rfl _).trans (W1_of_ne m ρ c main_arg0 (by decide) (by decide) (by decide)).symm
  | ⟨2, _⟩ => ((dats m 0 c).arrAt_in 2 rfl _).trans (W1_of_ne m ρ c main_arg1 (by decide) (by decide) (by decide)).symm
  | ⟨3, _⟩ => ((dats m 0 c).arrAt_in 3 rfl _).trans (W1_of_ne m ρ c main_arg1 (by decide) (by decide) (by decide)).symm
  | ⟨4, _⟩ => (W1_v0_0 m ρ c).symm
  | ⟨5, _⟩ => (W1_v0_1 m ρ c).symm
  | ⟨6, _⟩ => (W1_v0_2 m ρ c).symm

/-- and every buffer that is no window's array what it held at entry. -/
theorem hrest1 (c : Dev nD) : ∀ b, b ∉ Finset.univ.image (Pipeline.arrRef spec0) → V1 m ρ c b = V0 m ρ c b := fun b hb =>
  W1_of_ne m ρ c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

/-- After the host operations. -/
abbrev W2 : Dev nD → Valuation τ sig (Elt F) := fun c => StableHlo.after hostOps1 (W1 m ρ c)

/-! ## The segments -/

abbrev adm : (p : Fin 1) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W2 m ρ c) ∗ ∃ r, prngReg c r)

set_option backward.isDefEq.respectTransparency.types false in
/-- THE REGION over the thread state: entered from every unscoped buffer as launched, left with them at the exit
    contents; the generator register into the invariant and out; nothing owed; no semaphore of the kernel's own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := arrays_of_unscopedBufs m c (V0 m ρ c) ((dats m 0 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays m c (V0 m ρ c) (V1 m ρ c) ((dats m 0 c).arrAt · cfg0.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment over the unscoped references. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

abbrev segs : List (Pipeline.Seg (pcfgs (F := F)) adm (dats m) () defs₀ 𝒱₀ L lv) :=
  [ .region (reg0 m ρ), .host (hseg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (dats m) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => by
      show iprop(StableHlo.held (c : Thread nD τ) (Pipeline.ucRefs τ sig) (W2 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

end Cert.KernelIdeal.Hand

end
-- ==== Proof.KIFrame.lean ====
/-
  The frame: every weakly fair execution of the program terminates, nothing faulting, and the two argument arrays end
  as launched — no host operation writes one, and the region only reads them.
-/
import proofs.«179846_j74603581931591_1_alg».proof.Proof.KILaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg0) := W1_of_ne m ρ c main_arg0 (by decide) (by decide) (by decide)
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m ρ c (Proc.devRef .tc main_arg1) := W1_of_ne m ρ c main_arg1 (by decide) (by decide) (by decide)
    _ = m ((c : Thread nD τ).loc main_arg1) := rfl

/-- THE FRAME, at any float values. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W2_main_arg0 m ρ c),
       (h c _ (mem_uc main_arg1 (by decide))).trans (W2_main_arg1 m ρ c)⟩)
    (run_main m ρ)

end Cert.KernelIdeal.Hand

end
-- ==== Proof.KIPieces.lean ====
/-
  What each case of the body leaves in each accumulator, as the body's arithmetic of the loaded blocks: the
  accumulator's contents before (the cleared buffer at the first point, what the point before left otherwise)
  plus the tile's sum, broadcast along the 128 lanes. The first accumulator sums over the pairs of rows of
  the two blocks of the first array, the second over the two blocks of the second array, the third over the
  first array's first block against the second array's second block.
-/
import proofs.«179846_j74603581931591_1_alg».proof.Proof.KIBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem out0_A_4_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) :
    out0_A_4 c i arg2 harg2 arg3 harg3 arg4 harg4 arg5 harg5 arg6 harg6 arg7 harg7 arg8 harg8 hc0 x0 x1 x2 x3 = k0_pay1 (k0_pay7 x0 x1) (k0_pay4 (F := F)) := by
  unfold out0_A_4
  rw [View.read_writes_junk_eq_canon]
  unfold kernelRun0_A
  dsimp only
  sl_unfold_words
  have hz : (![0, 0] : Fin 2 → Nat) = fun _ => 0 := by funext a; fin_cases a <;> rfl
  have e0 : ∀ (a : Memref sig .tc .vmem S1024x256 .f32) (h : a.IsWhole) (x : Vec F S1024x256 .f32),
      View.readAt (Elt F) a.view (Rect.unit ![0, 0] S1024x256.size inb_S1024x256_S1024x256_0_0).toLoadRect (h.unread x) = x :=
    fun a h x => by rw [View.readAt_eq_ld, h.read_unread]; exact View.ld_unit_zero hz _ x
  rw [View.canon_cons_unit_zero hz]
  refine congrArg₂ k0_pay1 ?_ ?_
  · simp only [e0]
  · exact View.readCov_unit_zero arg6.view hz _ _

theorem out0_A_5_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) :
    out0_A_5 c i arg2 harg2 arg3 harg3 arg4 harg4 arg5 harg5 arg6 harg6 arg7 harg7 arg8 harg8 hc0 x0 x1 x2 x3 = k0_pay2 (k0_pay9 x2 x3 (k0_pay8 x2)) (k0_pay5 (F := F)) := by
  unfold out0_A_5
  rw [View.read_writes_junk_eq_canon]
  unfold kernelRun0_A
  dsimp only
  sl_unfold_words
  have hz : (![0, 0] : Fin 2 → Nat) = fun _ => 0 := by funext a; fin_cases a <;> rfl
  have e0 : ∀ (a : Memref sig .tc .vmem S1024x256 .f32) (h : a.IsWhole) (x : Vec F S1024x256 .f32),
      View.readAt (Elt F) a.view (Rect.unit ![0, 0] S1024x256.size inb_S1024x256_S1024x256_0_0).toLoadRect (h.unread x) = x :=
    fun a h x => by rw [View.readAt_eq_ld, h.read_unread]; exact View.ld_unit_zero hz _ x
  rw [View.canon_cons_unit_zero hz]
  refine congrArg₂ k0_pay2 ?_ ?_
  · simp only [e0]
  · exact View.readCov_unit_zero arg7.view hz _ _

theorem out0_A_6_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 x3 : Vec F S1024x256 .f32) :
    out0_A_6 c i arg2 harg2 arg3 harg3 arg4 harg4 arg5 harg5 arg6 harg6 arg7 harg7 arg8 harg8 hc0 x0 x1 x2 x3 = k0_pay3 (k0_pay10 x0 x3) (k0_pay6 (F := F)) := by
  unfold out0_A_6
  rw [View.read_writes_junk_eq_canon]
  unfold kernelRun0_A
  dsimp only
  sl_unfold_words
  have hz : (![0, 0] : Fin 2 → Nat) = fun _ => 0 := by funext a; fin_cases a <;> rfl
  have e0 : ∀ (a : Memref sig .tc .vmem S1024x256 .f32) (h : a.IsWhole) (x : Vec F S1024x256 .f32),
      View.readAt (Elt F) a.view (Rect.unit ![0, 0] S1024x256.size inb_S1024x256_S1024x256_0_0).toLoadRect (h.unread x) = x :=
    fun a h x => by rw [View.readAt_eq_ld, h.read_unread]; exact View.ld_unit_zero hz _ x
  rw [View.canon_cons_unit_zero hz]
  refine congrArg₂ k0_pay3 ?_ ?_
  · simp only [e0]
  · exact View.readCov_unit_zero arg8.view hz _ _

theorem out0_B_4_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) :
    out0_B_4 c i arg2 harg2 arg3 harg3 arg4 harg4 arg5 harg5 arg6 harg6 arg7 harg7 arg8 harg8 hc0 x0 x1 x2 x3 xo4 xo5 xo6 = k0_pay1 (k0_pay7 x0 x1) (xo4) := by
  unfold out0_B_4
  rw [View.read_writes_junk_eq_canon]
  unfold kernelRun0_B
  dsimp only
  sl_unfold_words
  have hz : (![0, 0] : Fin 2 → Nat) = fun _ => 0 := by funext a; fin_cases a <;> rfl
  have e0 : ∀ (a : Memref sig .tc .vmem S1024x256 .f32) (h : a.IsWhole) (x : Vec F S1024x256 .f32),
      View.readAt (Elt F) a.view (Rect.unit ![0, 0] S1024x256.size inb_S1024x256_S1024x256_0_0).toLoadRect (h.unread x) = x :=
    fun a h x => by rw [View.readAt_eq_ld, h.read_unread]; exact View.ld_unit_zero hz _ x
  rw [View.canon_cons_unit_zero hz]
  refine congrArg₂ k0_pay1 ?_ ?_
  · simp only [e0]
  · rw [View.readAt_eq_ld, harg6.read_unread]; exact View.ld_unit_zero hz _ _

theorem out0_B_5_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) :
    out0_B_5 c i arg2 harg2 arg3 harg3 arg4 harg4 arg5 harg5 arg6 harg6 arg7 harg7 arg8 harg8 hc0 x0 x1 x2 x3 xo4 xo5 xo6 = k0_pay2 (k0_pay9 x2 x3 (k0_pay8 x2)) (xo5) := by
  unfold out0_B_5
  rw [View.read_writes_junk_eq_canon]
  unfold kernelRun0_B
  dsimp only
  sl_unfold_words
  have hz : (![0, 0] : Fin 2 → Nat) = fun _ => 0 := by funext a; fin_cases a <;> rfl
  have e0 : ∀ (a : Memref sig .tc .vmem S1024x256 .f32) (h : a.IsWhole) (x : Vec F S1024x256 .f32),
      View.readAt (Elt F) a.view (Rect.unit ![0, 0] S1024x256.size inb_S1024x256_S1024x256_0_0).toLoadRect (h.unread x) = x :=
    fun a h x => by rw [View.readAt_eq_ld, h.read_unread]; exact View.ld_unit_zero hz _ x
  rw [View.canon_cons_unit_zero hz]
  refine congrArg₂ k0_pay2 ?_ ?_
  · simp only [e0]
  · rw [View.readAt_eq_ld, harg7.read_unread]; exact View.ld_unit_zero hz _ _

theorem out0_B_6_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 x3 : Vec F S1024x256 .f32) (xo4 xo5 xo6 : Vec F S1x128 .f32) :
    out0_B_6 c i arg2 harg2 arg3 harg3 arg4 harg4 arg5 harg5 arg6 harg6 arg7 harg7 arg8 harg8 hc0 x0 x1 x2 x3 xo4 xo5 xo6 = k0_pay3 (k0_pay10 x0 x3) (xo6) := by
  unfold out0_B_6
  rw [View.read_writes_junk_eq_canon]
  unfold kernelRun0_B
  dsimp only
  sl_unfold_words
  have hz : (![0, 0] : Fin 2 → Nat) = fun _ => 0 := by funext a; fin_cases a <;> rfl
  have e0 : ∀ (a : Memref sig .tc .vmem S1024x256 .f32) (h : a.IsWhole) (x : Vec F S1024x256 .f32),
      View.readAt (Elt F) a.view (Rect.unit ![0, 0] S1024x256.size inb_S1024x256_S1024x256_0_0).toLoadRect (h.unread x) = x :=
    fun a h x => by rw [View.readAt_eq_ld, h.read_unread]; exact View.ld_unit_zero hz _ x
  rw [View.canon_cons_unit_zero hz]
  refine congrArg₂ k0_pay3 ?_ ?_
  · simp only [e0]
  · rw [View.readAt_eq_ld, harg8.read_unread]; exact View.ld_unit_zero hz _ _

end Cert.KernelIdeal.Hand

end
-- ==== Proof.Spec.lean ====
/-
  The mathematics of the pairwise Gaussian-kernel sums, over the extended reals.

  For two rows u, v of 256 entries the pair's term is exp(-(|u|^2 + |v|^2 - 2 u.v) / 65536). One program multiplies
  the negated squared distance by the dyadic 2^-16, the other divides it by 65536: the same extended real. The sum
  of the terms over all 8192 x 8192 pairs of rows is the sum, over the 8 x 8 grid of tiles, of each tile's sum over its
  1024 x 1024 pairs: a regrouping of a finite sum, which the extended reals allow with no finiteness. Last, dividing a
  combination a + b - 2 c by the positive real 2^26 is the combination of the three quotients: multiplication by a
  nonnegative real distributes over every sum of extended reals.
-/
import Idealize.ShloMosaic.PureOps.Ideal
import Idealize.ShloMosaic.PureOps.Ideal.Laws
import Idealize.ShloMosaic.Lib.ValueIdx

noncomputable section

namespace Cert.Spec

open Idealize.ShloMosaic

/-- The four float literals the two programs spell: 2, 2^-16, 65536 and 2^26. -/
def two : EReal := Ideal.ofBits .f32 0x40000000#32
def c16 : EReal := Ideal.ofBits .f32 0x37800000#32
def c65536 : EReal := Ideal.ofBits .f32 0x47800000#32
def c26 : EReal := Ideal.ofBits .f32 0x4C800000#32

theorem c16_eq : c16 = ((1 / 65536 : ℝ) : EReal) := by
  unfold c16; simp [Ideal.ofBits, Ideal.ieee, -EReal.coe_mul]; norm_num
theorem c65536_eq : c65536 = ((65536 : ℝ) : EReal) := by
  unfold c65536; simp [Ideal.ofBits, Ideal.ieee, -EReal.coe_mul]; norm_num
theorem c26_eq : c26 = ((67108864 : ℝ) : EReal) := by
  unfold c26; simp [Ideal.ofBits, Ideal.ieee, -EReal.coe_mul]; norm_num

/-- One pair of rows' term, in the form that multiplies by 2^-16. -/
def pairE (u v : Fin 256 → EReal) : EReal :=
  Ideal.exp ((0 - ((∑ d, u d * u d) + (∑ d, v d * v d) - two * ∑ d, u d * v d)) * c16)

/-- The form that negates and divides by 65536, each row sum started from zero, is the same term. -/
theorem pairE_ref (u v : Fin 256 → EReal) :
    Ideal.exp (Ideal.div (-(((0 : EReal) + ∑ d, u d * u d) + ((0 : EReal) + ∑ d, v d * v d) - two * ∑ d, u d * v d)) c65536)
      = pairE u v := by
  unfold pairE
  rw [c65536_eq, Ideal.div_coe (by norm_num), c16_eq, zero_add, zero_add, zero_sub]

/-- Dividing the combination by 2^26 is combining the quotients. -/
theorem combine (a b c : EReal) :
    Ideal.div (a + b - two * c) c26 = Ideal.div a c26 + Ideal.div b c26 - two * Ideal.div c c26 := by
  rw [c26_eq]
  simp only [Ideal.div_coe (by norm_num : (67108864 : ℝ) ≠ 0)]
  have hk0 : (0 : EReal) ≤ ((1 / 67108864 : ℝ) : EReal) := EReal.coe_nonneg.mpr (by norm_num)
  have hkt : ((1 / 67108864 : ℝ) : EReal) ≠ ⊤ := EReal.coe_ne_top _
  rw [sub_eq_add_neg, EReal.right_distrib_of_nonneg_of_ne_top hk0 hkt, EReal.right_distrib_of_nonneg_of_ne_top hk0 hkt,
    EReal.neg_mul, mul_assoc, ← sub_eq_add_neg]

/-- A sum over `m * n` indices, grouped in `m` runs of `n`. -/
theorem sum_fin_mul {M : Type*} [AddCommMonoid M] (m n : ℕ) (g : Fin (m * n) → M) :
    ∑ i, g i = ∑ a : Fin m, ∑ r : Fin n, g ⟨n * a.val + r.val,
      Nat.lt_of_lt_of_le (Nat.add_lt_add_left r.isLt _) (by rw [← Nat.mul_succ, Nat.mul_comm m n]; exact Nat.mul_le_mul_left _ a.isLt)⟩ := by
  rw [← Equiv.sum_comp finProdFinEquiv g, Fintype.sum_prod_type]
  refine Finset.sum_congr rfl fun a _ => Finset.sum_congr rfl fun r _ => congrArg g (Fin.ext ?_)
  simp only [finProdFinEquiv_apply_val]
  exact Nat.add_comm _ _

/-- Row `r` of block `a` of 8192 rows cut in 8 blocks of 1024. -/
def blk (a : Fin 8) (r : Fin 1024) : Fin 8192 := ⟨1024 * a.val + r.val, by have := a.isLt; have := r.isLt; omega⟩
/-- The row block and the column block of tile `t` of the 8 x 8 grid, row-major. -/
def rowOf (t : Fin 64) : Fin 8 := ⟨t.val / 8, by have := t.isLt; omega⟩
def colOf (t : Fin 64) : Fin 8 := ⟨t.val % 8, by have := t.isLt; omega⟩

/-- The double sum over all pairs of rows is the sum over the tiles of each tile's double sum. -/
theorem sum_tiles {M : Type*} [AddCommMonoid M] (f : Fin 8192 → Fin 8192 → M) :
    ∑ i, ∑ j, f i j = ∑ t : Fin 64, ∑ r : Fin 1024, ∑ c : Fin 1024, f (blk (rowOf t) r) (blk (colOf t) c) := by
  have e1 := sum_fin_mul 8 1024 (fun i : Fin 8192 => ∑ j, f i j)
  have e2 (i : Fin 8192) := sum_fin_mul 8 1024 (fun j : Fin 8192 => f i j)
  have e3 := sum_fin_mul 8 8 (fun t : Fin 64 => ∑ r : Fin 1024, ∑ c : Fin 1024, f (blk (rowOf t) r) (blk (colOf t) c))
  rw [e1, e3]
  refine Finset.sum_congr rfl fun a _ => ?_
  simp only [e2]
  rw [Finset.sum_comm]
  refine Finset.sum_congr rfl fun b _ => Finset.sum_congr rfl fun r _ => Finset.sum_congr rfl fun c _ => ?_
  have ha : rowOf ⟨8 * a.val + b.val, by have := a.isLt; have := b.isLt; omega⟩ = a := Fin.ext (by
    show (8 * a.val + b.val) / 8 = a.val; have := b.isLt; omega)
  have hb : colOf ⟨8 * a.val + b.val, by have := a.isLt; have := b.isLt; omega⟩ = b := Fin.ext (by
    show (8 * a.val + b.val) % 8 = b.val; have := b.isLt; omega)
  rw [ha, hb]
  rfl

/-- The sum over all pairs of rows of two 8192 x 256 arrays of the pair's term. -/
def SS (x y : (⟨2, ![8192, 256]⟩ : Shape).Idx → EReal) : EReal :=
  ∑ a : Fin 8192, ∑ b : Fin 8192, pairE (fun d => x (ValueIdx.ix2 a d)) (fun d => y (ValueIdx.ix2 b d))

/-- The result both programs compute: (s_xx + s_yy - 2 s_xy) / 2^26. -/
def G (x y : (⟨2, ![8192, 256]⟩ : Shape).Idx → EReal) : EReal := Ideal.div (SS x x + SS y y - two * SS x y) c26

end Cert.Spec

end
-- ==== Proof.KIPay.lean ====
/-
  The kernel body's arithmetic read at an index, over the extended reals.

  A row block's squared norms (a lane sum of the squares), the 1024 x 1024 matrix of inner products of the rows of two
  blocks (the matrix unit's product with the second block transposed, into a zero accumulator), the matrix of the pairs'
  terms exp(-(|a|^2 + |b|^2 - 2 a.b) 2^-16), its sum over rows and columns, and the accumulator's update: the
  contents before plus that sum, the same on every lane.
-/
import proofs.«179846_j74603581931591_1_alg».proof.Proof.Gen.KernelIdeal.Skeleton
import proofs.«179846_j74603581931591_1_alg».proof.Proof.Spec
import Idealize.ShloMosaic.Lib.Pipeline.Value
import Idealize.ShloMosaic.Lib.ValueLayout

set_option maxRecDepth 16384

noncomputable section

namespace Cert.KernelIdeal.Pay

open Cert.KernelIdeal Cert.KernelIdeal.Gen Cert.Spec
open Idealize.ShloMosaic Idealize.ShloMosaic.ValueIdx

/-! ## The pieces of a payload, named -/

/-- The rows' squared norms. -/
def rowSq (A : Vec Ideal S1024x256 .f32) : FVec Ideal S1024 .f32 :=
  multiReduction .add [1] S1024 (mulf A A) 0x00000000#32 reduces_S1024x256_S1024 (.inl rfl) rfl
/-- A vector as a column, -/
def asCol (s : FVec Ideal S1024 .f32) : FVec Ideal S1024x1 .f32 := shapeCast S1024x1 s shapeCasts_S1024_S1024x1
/-- and a column as a row. -/
def asRow (s : FVec Ideal S1024x1 .f32) : FVec Ideal S1x1024 .f32 := transpose S1x1024 [1, 0] s transposes_S1024x1_p1_0_S1x1024
/-- The inner products of the rows of `A` with the rows of `B`. -/
def gram (A B : Vec Ideal S1024x256 .f32) : FVec Ideal S1024x1024 .f32 :=
  matmul dot_S1024x256_S256x1024_S1024x1024_1_0_0_1_n_n none (truncf .bf16 A bitsLt_bf16_f32)
    (transpose S256x1024 [1, 0] (truncf .bf16 B bitsLt_bf16_f32) transposes_S1024x256_p1_0_S256x1024) (constant S1024x1024 .f32 0x00000000#32)
/-- The pairs' terms from the squared norms and the inner products. -/
def expMat (sa : FVec Ideal S1024x1 .f32) (sb : FVec Ideal S1x1024 .f32) (mm : FVec Ideal S1024x1024 .f32) : FVec Ideal S1024x1024 .f32 :=
  exp (mulf (subf (broadcast S1024x1024 (Scalar.ofBits .f32 0x00000000#32))
      (subf (addf (broadcastTo S1024x1024 sa broadcasts_S1024x1_S1024x1024) (broadcastTo S1024x1024 sb broadcasts_S1x1024_S1024x1024))
        (mulf (broadcast S1024x1024 (Scalar.ofBits .f32 0x40000000#32)) mm)))
    (broadcast S1024x1024 (Scalar.ofBits .f32 0x37800000#32)))
/-- A matrix's lane sums, -/
def rowTot (E : FVec Ideal S1024x1024 .f32) : FVec Ideal S1024 .f32 :=
  multiReduction .add [1] S1024 E 0x00000000#32 reduces_S1024x1024_S1024 (.inl rfl) rfl
/-- a column's sum, -/
def colTot (v : FVec Ideal S1024x1 .f32) : FVec Ideal S1 .f32 :=
  multiReduction .add [0] S1 v 0x00000000#32 reduces_S1024x1_S1 (.inl rfl) rfl
/-- and the sum of a 1024 x 1024 matrix: along the lanes, then down the rows. -/
def totalOf (E : FVec Ideal S1024x1024 .f32) : FVec Ideal S1x1 .f32 :=
  shapeCast S1x1 (colTot (asCol (rowTot E))) shapeCasts_S1_S1x1
/-- The accumulator's update. -/
def accAdd (s : FVec Ideal S1x1 .f32) (prev : Vec Ideal S1x128 .f32) : FVec Ideal S1x128 .f32 :=
  addf (shapeCast S1x128 prev shapeCasts_S1x128_S1x128) (broadcastTo S1x128 (shapeCast S1x1 s shapeCasts_S1x1_S1x1) broadcasts_S1x1_S1x128)

/-- The pairs' terms of two row blocks. -/
def pairMat (A B : Vec Ideal S1024x256 .f32) : FVec Ideal S1024x1024 .f32 :=
  expMat (asCol (rowSq A)) (asRow (asCol (rowSq B))) (gram A B)

theorem pay10_eq (A B : Vec Ideal S1024x256 .f32) : k0_pay10 (F := Ideal) A B = pairMat A B := rfl
theorem pay7_eq (A B : Vec Ideal S1024x256 .f32) : k0_pay7 (F := Ideal) A B = totalOf (pairMat A B) := rfl
theorem pay8_eq (A : Vec Ideal S1024x256 .f32) : k0_pay8 (F := Ideal) A = rowSq A := rfl
theorem pay9_eq (A B : Vec Ideal S1024x256 .f32) : k0_pay9 (F := Ideal) A B (k0_pay8 A) = totalOf (pairMat A B) := rfl
theorem pay1_eq (s : FVec Ideal S1x1 .f32) (prev : Vec Ideal S1x128 .f32) : k0_pay1 (F := Ideal) s prev = accAdd s prev := rfl
theorem pay2_eq (s : FVec Ideal S1x1 .f32) (prev : Vec Ideal S1x128 .f32) : k0_pay2 (F := Ideal) s prev = accAdd s prev := rfl
theorem pay3_eq (E : FVec Ideal S1024x1024 .f32) (prev : Vec Ideal S1x128 .f32) : k0_pay3 (F := Ideal) E prev = accAdd (totalOf E) prev := rfl

/-! ## Each piece at an index -/

theorem lift1 (h : S1024x256.Reduces [1] S1024) (r : Fin 1024) (d : Fin 256) : h.lift (ix1 r) d = ix2 r d :=
  funext fun a => Fin.ext (by match a with | ⟨0, _⟩ => rfl | ⟨1, _⟩ => rfl)

theorem rowSq_apply (A : Vec Ideal S1024x256 .f32) (r : Fin 1024) :
    rowSq A (ix1 r) = ∑ d : Fin 256, A (ix2 r d) * A (ix2 r d) := by
  unfold rowSq
  refine (Ideal.multiReduction_add_single (mulf A A) 0x00000000#32 reduces_S1024x256_S1024 (.inl rfl) rfl (ix1 r)).trans ?_
  exact Finset.sum_congr rfl fun d _ => congrArg (fun i => A i * A i) (lift1 reduces_S1024x256_S1024 r d)

theorem asCol_apply (s : FVec Ideal S1024 .f32) (r : Fin 1024) : asCol s (ix2 r (0 : Fin 1)) = s (ix1 r) := by
  unfold asCol
  refine shapeCast_apply s shapeCasts_S1024_S1024x1 _ _ ?_
  rw [Shape.rowMajor_val_one, Shape.rowMajor_val_two]
  show r.val = r.val * 1 + 0
  omega

theorem asRow_apply (s : FVec Ideal S1024x1 .f32) (c : Fin 1024) : asRow s (ix2 (0 : Fin 1) c) = s (ix2 c (0 : Fin 1)) := by
  unfold asRow
  exact transpose_ix2_apply s transposes_S1024x1_p1_0_S1x1024 0 c

theorem lift2 (h : S1024x1024.Reduces [1] S1024) (r : Fin 1024) (c : Fin 1024) : h.lift (ix1 r) c = ix2 r c :=
  funext fun a => Fin.ext (by match a with | ⟨0, _⟩ => rfl | ⟨1, _⟩ => rfl)
theorem lift3 (h : S1024x1.Reduces [0] S1) (r : Fin 1024) : h.lift (ix1 (0 : Fin 1)) r = ix2 r (0 : Fin 1) :=
  funext fun a => Fin.ext (by match a with | ⟨0, _⟩ => rfl | ⟨1, _⟩ => rfl)

theorem lhs0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem lhs1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The matrix unit's product at (r, c): the inner product of row r of `A` and row c of `B`. -/
theorem gram_apply (A B : Vec Ideal S1024x256 .f32) (r c : Fin 1024) :
    gram A B (ix2 r c) = ∑ d : Fin 256, A (ix2 r d) * B (ix2 c d) := by
  unfold gram
  refine (Ideal.matmul_constant_zero_apply dot_S1024x256_S256x1024_S1024x1024_1_0_0_1_n_n none _ _ (ix2 r c)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c) ((contrEquiv1 dot_S1024x256_S256x1024_S1024x1024_1_0_0_1_n_n 256 rfl rfl).symm k) = ix2 r k :=
    funext fun a => Fin.ext (by
      match a with
      | ⟨0, _⟩ => exact lhs0 _ _
      | ⟨1, _⟩ => exact (lhs1 _ _).trans hk)
  have er : dot_S1024x256_S256x1024_S1024x1024_1_0_0_1_n_n.rhsIdx (ix2 r c) ((contrEquiv1 dot_S1024x256_S256x1024_S1024x1024_1_0_0_1_n_n 256 rfl rfl).symm k) = ix2 k c :=
    funext fun a => Fin.ext (by
      match a with
      | ⟨0, _⟩ => exact (rhs0 _ _).trans hk
      | ⟨1, _⟩ => exact rhs1 _ _)
  rw [el, er]
  refine congrArg (A (ix2 r k) * ·) ?_
  exact transpose_ix2_apply _ transposes_S1024x256_p1_0_S256x1024 k c

theorem bcol_apply (s : FVec Ideal S1024x1 .f32) (r c : Fin 1024) :
    broadcastTo S1024x1024 s broadcasts_S1024x1_S1024x1024 (ix2 r c) = s (ix2 r (0 : Fin 1)) :=
  broadcastTo_apply s _ (ix2 r c) (ix2 r (0 : Fin 1)) fun ax => by match ax with | ⟨0, _⟩ => rfl | ⟨1, _⟩ => rfl

theorem expMat_apply (sa : FVec Ideal S1024x1 .f32) (sb : FVec Ideal S1x1024 .f32) (mm : FVec Ideal S1024x1024 .f32) (r c : Fin 1024) :
    expMat sa sb mm (ix2 r c)
      = Ideal.exp ((0 - ((sa (ix2 r (0 : Fin 1)) + sb (ix2 (0 : Fin 1) c)) - two * mm (ix2 r c))) * c16) := by
  unfold expMat
  show Ideal.exp ((Ideal.ofBits .f32 0x00000000#32 - ((broadcastTo S1024x1024 sa broadcasts_S1024x1_S1024x1024 (ix2 r c)
      + broadcastTo S1024x1024 sb broadcasts_S1x1024_S1024x1024 (ix2 r c)) - Ideal.ofBits .f32 0x40000000#32 * mm (ix2 r c)))
      * Ideal.ofBits .f32 0x37800000#32) = _
  rw [bcol_apply, broadcastTo_1b_ab_apply, Ideal.ofBits_zero_f32]
  rfl

/-- The pairs' terms of two row blocks at (r, c): the term of row r of the first and row c of the second. -/
theorem pairMat_apply (A B : Vec Ideal S1024x256 .f32) (r c : Fin 1024) :
    pairMat A B (ix2 r c) = pairE (fun d => A (ix2 r d)) (fun d => B (ix2 c d)) := by
  unfold pairMat pairE
  rw [expMat_apply, asCol_apply, rowSq_apply, asRow_apply, asCol_apply, rowSq_apply, gram_apply]

theorem rowTot_apply (E : FVec Ideal S1024x1024 .f32) (r : Fin 1024) : rowTot E (ix1 r) = ∑ c : Fin 1024, E (ix2 r c) := by
  unfold rowTot
  refine (Ideal.multiReduction_add_single E 0x00000000#32 reduces_S1024x1024_S1024 (.inl rfl) rfl (ix1 r)).trans ?_
  exact Finset.sum_congr rfl fun c _ => congrArg E (lift2 reduces_S1024x1024_S1024 r c)

theorem colTot_apply (v : FVec Ideal S1024x1 .f32) : colTot v (ix1 (0 : Fin 1)) = ∑ r : Fin 1024, v (ix2 r (0 : Fin 1)) := by
  unfold colTot
  refine (Ideal.multiReduction_add_single v 0x00000000#32 reduces_S1024x1_S1 (.inl rfl) rfl (ix1 (0 : Fin 1))).trans ?_
  exact Finset.sum_congr rfl fun r _ => congrArg v (lift3 reduces_S1024x1_S1 r)

/-- The matrix's sum, at the one index of the 1 x 1 result. -/
theorem totalOf_apply (E : FVec Ideal S1024x1024 .f32) (j : S1x1.Idx) :
    totalOf E j = ∑ r : Fin 1024, ∑ c : Fin 1024, E (ix2 r c) := by
  obtain rfl : j = ix2 (0 : Fin 1) (0 : Fin 1) := funext fun a => Fin.ext (by
    match a with
    | ⟨0, _⟩ => exact Nat.lt_one_iff.mp (j 0).isLt
    | ⟨1, _⟩ => exact Nat.lt_one_iff.mp (j 1).isLt)
  unfold totalOf
  refine (shapeCast_apply _ shapeCasts_S1_S1x1 (ix2 (0 : Fin 1) (0 : Fin 1)) (ix1 (0 : Fin 1)) (by
    rw [Shape.rowMajor_val_one, Shape.rowMajor_val_two]; rfl)).trans ?_
  rw [colTot_apply]
  exact Finset.sum_congr rfl fun r _ => by rw [asCol_apply, rowTot_apply]

/-- The accumulator's update at a lane: what it held there plus the sum. -/
theorem accAdd_apply (s : FVec Ideal S1x1 .f32) (prev : Vec Ideal S1x128 .f32) (j : S1x128.Idx) :
    accAdd s prev j = prev j + s (ix2 (0 : Fin 1) (0 : Fin 1)) := by
  unfold accAdd
  show shapeCast S1x128 prev shapeCasts_S1x128_S1x128 j
    + broadcastTo S1x128 (shapeCast S1x1 s shapeCasts_S1x1_S1x1) broadcasts_S1x1_S1x128 j = _
  rw [shapeCast_apply prev shapeCasts_S1x128_S1x128 j j rfl,
    broadcastTo_apply (shapeCast S1x1 s shapeCasts_S1x1_S1x1) broadcasts_S1x1_S1x128 j (ix2 (0 : Fin 1) (0 : Fin 1))
      (fun ax => by match ax with | ⟨0, _⟩ => rfl | ⟨1, _⟩ => rfl),
    shapeCast_apply s shapeCasts_S1x1_S1x1 (ix2 (0 : Fin 1) (0 : Fin 1)) (ix2 (0 : Fin 1) (0 : Fin 1)) rfl]

/-- The cleared accumulator holds zero on every lane. -/
theorem pay4_apply (j : S1x128.Idx) : k0_pay4 (F := Ideal) j = 0 := Ideal.ofBits_zero_f32
theorem pay5_apply (j : S1x128.Idx) : k0_pay5 (F := Ideal) j = 0 := Ideal.ofBits_zero_f32
theorem pay6_apply (j : S1x128.Idx) : k0_pay6 (F := Ideal) j = 0 := Ideal.ofBits_zero_f32

/-- A tile's sum: over the pairs of rows of the two blocks, of the pair's term. -/
def tileSum (A B : Vec Ideal S1024x256 .f32) : EReal :=
  ∑ r : Fin 1024, ∑ c : Fin 1024, pairE (fun d => A (ix2 r d)) (fun d => B (ix2 c d))

theorem total_pairMat (A B : Vec Ideal S1024x256 .f32) (j : S1x1.Idx) : totalOf (pairMat A B) j = tileSum A B := by
  rw [totalOf_apply]
  exact Finset.sum_congr rfl fun r _ => Finset.sum_congr rfl fun c _ => pairMat_apply A B r c

end Cert.KernelIdeal.Pay

end
-- ==== Proof.KIValue.lean ====
/-
  The kernel's result as a function of the two argument arrays, over the extended reals.

  Window 0 and window 2 stage row block t / 8 of the first and of the second array at grid point t, window 1 and
  window 3 row block t % 8. Each accumulator therefore holds, after point n, the sum over the points up to n of that
  point's tile sum, on every lane; after the last point the three hold the sums over all 8192 x 8192 pairs of rows
  (first array with itself, second with itself, first with second), which the last write-back copies out. The host
  operations then take lane 0 of each and form (s_xx + s_yy - 2 s_xy) / 2^26.
-/
import proofs.«179846_j74603581931591_1_alg».proof.Proof.KILaunch
import proofs.«179846_j74603581931591_1_alg».proof.Proof.KIPieces
import proofs.«179846_j74603581931591_1_alg».proof.Proof.KIPay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Cert.KernelIdeal.Pay Idealize.ShloMosaic.ValueIdx

variable (m : (ℓ : Loc nD τ sig) → Buf (Elt Ideal) ℓ) (ρ : Dev nD → PrngReg)

/-- The rows of the two argument arrays on core `c`. -/
def X (c : Dev nD) : Fin 8192 → Fin 256 → EReal := fun i d => (m ((c : Thread nD τ).loc main_arg0)) (ix2 i d)
def Y (c : Dev nD) : Fin 8192 → Fin 256 → EReal := fun i d => (m ((c : Thread nD τ).loc main_arg1)) (ix2 i d)

/-- The printed index maps, decided over the grid. -/
theorem idx_in : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0 :=
  (by decide +kernel : ∀ t : Fin grid0.N, _)
theorem idx_out : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of each staged block is a row of its array. -/
theorem iblk0_row (c : Dev nD) (t : ℕ) (h : t < cfg0.N) (r : Fin 1024) :
    (fun d : Fin 256 => iblk m c 0 ⟨t, h⟩ (ix2 r d)) = X m c (blk (rowOf ⟨t, lt_of_lt_of_eq h N_0⟩) r) := by
  funext d
  unfold iblk X
  show V m c main_arg0 (((cfg0.win 0).blk ⟨t, h⟩).view.emb (ix2 r d)) = V m c main_arg0 (ix2 (blk (rowOf ⟨t, lt_of_lt_of_eq h N_0⟩) r) d)
  refine congrArg _ (funext fun a => Fin.ext ?_)
  obtain ⟨e0, e1, -⟩ := idx_in ⟨t, h⟩
  match a with
  | ⟨0, _⟩ => show win0_0.index ⟨t, h⟩ (0 : Fin 2) * 1024 + 1 * r.val = 1024 * (t / 8) + r.val; rw [show win0_0.index ⟨t, h⟩ (0 : Fin 2) = t / 8 from e0]; omega
  | ⟨1, _⟩ => show win0_0.index ⟨t, h⟩ (1 : Fin 2) * 256 + 1 * d.val = d.val; rw [e1]; omega
theorem iblk1_row (c : Dev nD) (t : ℕ) (h : t < cfg0.N) (r : Fin 1024) :
    (fun d : Fin 256 => iblk m c 1 ⟨t, h⟩ (ix2 r d)) = X m c (blk (colOf ⟨t, lt_of_lt_of_eq h N_0⟩) r) := by
  funext d
  unfold iblk X
  show V m c main_arg0 (((cfg0.win 1).blk ⟨t, h⟩).view.emb (ix2 r d)) = V m c main_arg0 (ix2 (blk (colOf ⟨t, lt_of_lt_of_eq h N_0⟩) r) d)
  refine congrArg _ (funext fun a => Fin.ext ?_)
  obtain ⟨-, -, e0, e1, -⟩ := idx_in ⟨t, h⟩
  match a with
  | ⟨0, _⟩ => show win0_1.index ⟨t, h⟩ (0 : Fin 2) * 1024 + 1 * r.val = 1024 * (t % 8) + r.val; rw [show win0_1.index ⟨t, h⟩ (0 : Fin 2) = t % 8 from e0]; omega
  | ⟨1, _⟩ => show win0_1.index ⟨t, h⟩ (1 : Fin 2) * 256 + 1 * d.val = d.val; rw [e1]; omega
theorem iblk2_row (c : Dev nD) (t : ℕ) (h : t < cfg0.N) (r : Fin 1024) :
    (fun d : Fin 256 => iblk m c 2 ⟨t, h⟩ (ix2 r d)) = Y m c (blk (rowOf ⟨t, lt_of_lt_of_eq h N_0⟩) r) := by
  funext d
  unfold iblk Y
  show V m c main_arg1 (((cfg0.win 2).blk ⟨t, h⟩).view.emb (ix2 r d)) = V m c main_arg1 (ix2 (blk (rowOf ⟨t, lt_of_lt_of_eq h N_0⟩) r) d)
  refine congrArg _ (funext fun a => Fin.ext ?_)
  obtain ⟨-, -, -, -, e0, e1, -⟩ := idx_in ⟨t, h⟩
  match a with
  | ⟨0, _⟩ => show win0_2.index ⟨t, h⟩ (0 : Fin 2) * 1024 + 1 * r.val = 1024 * (t / 8) + r.val; rw [show win0_2.index ⟨t, h⟩ (0 : Fin 2) = t / 8 from e0]; omega
  | ⟨1, _⟩ => show win0_2.index ⟨t, h⟩ (1 : Fin 2) * 256 + 1 * d.val = d.val; rw [e1]; omega
theorem iblk3_row (c : Dev nD) (t : ℕ) (h : t < cfg0.N) (r : Fin 1024) :
    (fun d : Fin 256 => iblk m c 3 ⟨t, h⟩ (ix2 r d)) = Y m c (blk (colOf ⟨t, lt_of_lt_of_eq h N_0⟩) r) := by
  funext d
  unfold iblk Y
  show V m c main_arg1 (((cfg0.win 3).blk ⟨t, h⟩).view.emb (ix2 r d)) = V m c main_arg1 (ix2 (blk (colOf ⟨t, lt_of_lt_of_eq h N_0⟩) r) d)
  refine congrArg _ (funext fun a => Fin.ext ?_)
  obtain ⟨-, -, -, -, -, -, e0, e1⟩ := idx_in ⟨t, h⟩
  match a with
  | ⟨0, _⟩ => show win0_3.index ⟨t, h⟩ (0 : Fin 2) * 1024 + 1 * r.val = 1024 * (t % 8) + r.val; rw [show win0_3.index ⟨t, h⟩ (0 : Fin 2) = t % 8 from e0]; omega
  | ⟨1, _⟩ => show win0_3.index ⟨t, h⟩ (1 : Fin 2) * 256 + 1 * d.val = d.val; rw [e1]; omega

/-- Point `t`'s three tile sums (zero past the grid). -/
def g4 (c : Dev nD) (t : ℕ) : EReal := if h : t < cfg0.N then tileSum (iblk m c 0 ⟨t, h⟩) (iblk m c 1 ⟨t, h⟩) else 0
def g5 (c : Dev nD) (t : ℕ) : EReal := if h : t < cfg0.N then tileSum (iblk m c 2 ⟨t, h⟩) (iblk m c 3 ⟨t, h⟩) else 0
def g6 (c : Dev nD) (t : ℕ) : EReal := if h : t < cfg0.N then tileSum (iblk m c 0 ⟨t, h⟩) (iblk m c 3 ⟨t, h⟩) else 0

/-- After point `n` each accumulator holds, on every lane, the sum of the tile sums of the points up to `n`. -/
theorem acc_apply (c : Dev nD) : ∀ (n : ℕ) (hn : n < cfg0.N) (j : S1x128.Idx),
    (outsAt0 m c n hn).1 j = ∑ t ∈ Finset.range (n + 1), g4 m c t
    ∧ (outsAt0 m c n hn).2.1 j = ∑ t ∈ Finset.range (n + 1), g5 m c t
    ∧ (outsAt0 m c n hn).2.2 j = ∑ t ∈ Finset.range (n + 1), g6 m c t
  | 0, hn, j => by
    have e : outsAt0 m c 0 hn = outA m c ⟨0, hn⟩ ((hcond0_0 ⟨0, hn⟩).mpr (Nat.zero_mod _)) := rfl
    rw [e]
    dsimp only [outA]
    rw [out0_A_4_eq, out0_A_5_eq, out0_A_6_eq, pay1_eq, pay2_eq, pay3_eq, pay7_eq, pay9_eq, pay10_eq]
    simp only [accAdd_apply, total_pairMat, pay4_apply, pay5_apply, pay6_apply, zero_add, Finset.sum_range_one]
    unfold g4 g5 g6
    simp only [dif_pos hn]
    refine ⟨?_, ?_, ?_⟩ <;> first | trivial | rfl
  | n + 1, hn, j => by
    have hN : n + 1 < 64 := lt_of_lt_of_eq hn N_0
    have h0 : ¬ (n + 1) % 64 = 0 := by omega
    have e : outsAt0 m c (n + 1) hn = outB m c ⟨n + 1, hn⟩ (fun h => h0 ((hcond0_0 ⟨n + 1, hn⟩).mp h)) (outsAt0 m c n (Nat.lt_of_succ_lt hn)) :=
      (dif_neg h0).trans rfl
    obtain ⟨i4, i5, i6⟩ := acc_apply c n (Nat.lt_of_succ_lt hn) j
    rw [e]
    dsimp only [outB]
    rw [out0_B_4_eq, out0_B_5_eq, out0_B_6_eq, pay1_eq, pay2_eq, pay3_eq, pay7_eq, pay9_eq, pay10_eq]
    simp only [accAdd_apply, total_pairMat]
    rw [i4, i5, i6, Finset.sum_range_succ (g4 m c) (n + 1), Finset.sum_range_succ (g5 m c) (n + 1), Finset.sum_range_succ (g6 m c) (n + 1)]
    refine ⟨congrArg _ ?_, congrArg _ ?_, congrArg _ ?_⟩
    · unfold g4; rw [dif_pos hn]
    · unfold g5; rw [dif_pos hn]
    · unfold g6; rw [dif_pos hn]

end Cert.KernelIdeal.Hand

end
-- ==== Proof.KIFinal.lean ====
/-
  The kernel program's result: the three result arrays after the last write-back, lane 0 of each through the host
  operations, and the whole as the common function of the two argument arrays.
-/
import proofs.«179846_j74603581931591_1_alg».proof.Proof.KIValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Cert.KernelIdeal.Pay Idealize.ShloMosaic.ValueIdx Idealize.ShloMosaic.StableHlo

variable (m : (ℓ : Loc nD τ sig) → Buf (Elt Ideal) ℓ) (ρ : Dev nD → PrngReg)

theorem h63 : 63 < cfg0.N := lt_of_lt_of_eq (by omega : 63 < 64) N_0.symm

/-! ## The result arrays after the region: what the last point left in each accumulator -/

/-- What the last point left in each accumulator. -/
def acc4 (c : Dev nD) : S1x128.Idx → EReal := (outsAt0 m c 63 h63).1
def acc5 (c : Dev nD) : S1x128.Idx → EReal := (outsAt0 m c 63 h63).2.1
def acc6 (c : Dev nD) : S1x128.Idx → EReal := (outsAt0 m c 63 h63).2.2

theorem outsAt0_congr (c : Dev nD) {n n' : ℕ} (e : n = n') (h : n < cfg0.N) (h' : n' < cfg0.N) :
    outsAt0 m c n h = outsAt0 m c n' h' := by subst e; rfl

theorem whole_block4 (t : Fin cfg0.N) (Z : S1x128.Idx → EReal) :
    (cfg0.win 4).cut (grid0.coords t) Z = ((cfg0.win 4).blk t).view.read (Elt Ideal) Z := by
  funext y
  show Z y = Z (((cfg0.win 4).blk t).view.emb y)
  refine congrArg Z (funext fun a => Fin.ext ?_)
  obtain ⟨e0, e1, -⟩ := idx_out t
  match a with
  | ⟨0, _⟩ => show (y 0).val = win0_4.index t (0 : Fin 2) * 1 + 1 * (y 0).val; rw [e0]; omega
  | ⟨1, _⟩ => show (y 1).val = win0_4.index t (1 : Fin 2) * 128 + 1 * (y 1).val; rw [e1]; omega

theorem flushed4_eq (c : Dev nD) (t : Fin cfg0.N) (ht : (cfg0.win 4).flush t = true) :
    (dats m 0 c).flushed 4 t = ((cfg0.win 4).blk t).view.read (Elt Ideal) (acc4 m c) := by
  have h : t.val % 64 = 63 := (flush0_4 t).mp ht
  have hN : t.val < 64 := lt_of_lt_of_eq t.isLt N_0
  have ht63 : t.val = 63 := by omega
  show (cfg0.win 4).cut (grid0.coords t) ((dats m 0 c).after 4 t) = _
  rw [after0_4, outsAt0_congr m c ht63 t.isLt h63]
  unfold acc4
  exact whole_block4 t _

theorem cover4 (i : S1x128.Idx) : ∃ t : Fin cfg0.N, (cfg0.win 4).flush t = true ∧ i ∈ ((cfg0.win 4).blk t).view.set := by
  refine ⟨⟨63, h63⟩, (flush0_4 _).mpr rfl, ?_⟩
  show i ∈ ((View.whole main_v0_0).slice (win0_4.rect ⟨63, h63⟩)).set
  rw [View.set_slice_whole, Rect.mem_set_unit]
  obtain ⟨e0, e1, -⟩ := idx_out ⟨63, h63⟩
  intro a
  match a with
  | ⟨0, _⟩ => show win0_4.index ⟨63, h63⟩ (0 : Fin 2) * 1 ≤ (i 0).val ∧ (i 0).val < win0_4.index ⟨63, h63⟩ (0 : Fin 2) * 1 + 1; rw [e0]; have hi : (i 0).val < 1 := (i 0).isLt; exact ⟨Nat.zero_le _, by omega⟩
  | ⟨1, _⟩ => show win0_4.index ⟨63, h63⟩ (1 : Fin 2) * 128 ≤ (i 1).val ∧ (i 1).val < win0_4.index ⟨63, h63⟩ (1 : Fin 2) * 128 + 128; rw [e1]; have hi : (i 1).val < 128 := (i 1).isLt; exact ⟨Nat.zero_le _, by omega⟩

theorem final4 (c : Dev nD) : (dats m 0 c).arrAt 4 cfg0.N = acc4 m c :=
  (dats m 0 c).arrAt_eq_of_cover 4 (acc4 m c) (fun t ht => flushed4_eq m c t ht) (cover4)

theorem whole_block5 (t : Fin cfg0.N) (Z : S1x128.Idx → EReal) :
    (cfg0.win 5).cut (grid0.coords t) Z = ((cfg0.win 5).blk t).view.read (Elt Ideal) Z := by
  funext y
  show Z y = Z (((cfg0.win 5).blk t).view.emb y)
  refine congrArg Z (funext fun a => Fin.ext ?_)
  obtain ⟨-, -, e0, e1, -⟩ := idx_out t
  match a with
  | ⟨0, _⟩ => show (y 0).val = win0_5.index t (0 : Fin 2) * 1 + 1 * (y 0).val; rw [e0]; omega
  | ⟨1, _⟩ => show (y 1).val = win0_5.index t (1 : Fin 2) * 128 + 1 * (y 1).val; rw [e1]; omega

theorem flushed5_eq (c : Dev nD) (t : Fin cfg0.N) (ht : (cfg0.win 5).flush t = true) :
    (dats m 0 c).flushed 5 t = ((cfg0.win 5).blk t).view.read (Elt Ideal) (acc5 m c) := by
  have h : t.val % 64 = 63 := (flush0_5 t).mp ht
  have hN : t.val < 64 := lt_of_lt_of_eq t.isLt N_0
  have ht63 : t.val = 63 := by omega
  show (cfg0.win 5).cut (grid0.coords t) ((dats m 0 c).after 5 t) = _
  rw [after0_5, outsAt0_congr m c ht63 t.isLt h63]
  unfold acc5
  exact whole_block5 t _

theorem cover5 (i : S1x128.Idx) : ∃ t : Fin cfg0.N, (cfg0.win 5).flush t = true ∧ i ∈ ((cfg0.win 5).blk t).view.set := by
  refine ⟨⟨63, h63⟩, (flush0_5 _).mpr rfl, ?_⟩
  show i ∈ ((View.whole main_v0_1).slice (win0_5.rect ⟨63, h63⟩)).set
  rw [View.set_slice_whole, Rect.mem_set_unit]
  obtain ⟨-, -, e0, e1, -⟩ := idx_out ⟨63, h63⟩
  intro a
  match a with
  | ⟨0, _⟩ => show win0_5.index ⟨63, h63⟩ (0 : Fin 2) * 1 ≤ (i 0).val ∧ (i 0).val < win0_5.index ⟨63, h63⟩ (0 : Fin 2) * 1 + 1; rw [e0]; have hi : (i 0).val < 1 := (i 0).isLt; exact ⟨Nat.zero_le _, by omega⟩
  | ⟨1, _⟩ => show win0_5.index ⟨63, h63⟩ (1 : Fin 2) * 128 ≤ (i 1).val ∧ (i 1).val < win0_5.index ⟨63, h63⟩ (1 : Fin 2) * 128 + 128; rw [e1]; have hi : (i 1).val < 128 := (i 1).isLt; exact ⟨Nat.zero_le _, by omega⟩

theorem final5 (c : Dev nD) : (dats m 0 c).arrAt 5 cfg0.N = acc5 m c :=
  (dats m 0 c).arrAt_eq_of_cover 5 (acc5 m c) (fun t ht => flushed5_eq m c t ht) (cover5)

theorem whole_block6 (t : Fin cfg0.N) (Z : S1x128.Idx → EReal) :
    (cfg0.win 6).cut (grid0.coords t) Z = ((cfg0.win 6).blk t).view.read (Elt Ideal) Z := by
  funext y
  show Z y = Z (((cfg0.win 6).blk t).view.emb y)
  refine congrArg Z (funext fun a => Fin.ext ?_)
  obtain ⟨-, -, -, -, e0, e1⟩ := idx_out t
  match a with
  | ⟨0, _⟩ => show (y 0).val = win0_6.index t (0 : Fin 2) * 1 + 1 * (y 0).val; rw [e0]; omega
  | ⟨1, _⟩ => show (y 1).val = win0_6.index t (1 : Fin 2) * 128 + 1 * (y 1).val; rw [e1]; omega

theorem flushed6_eq (c : Dev nD) (t : Fin cfg0.N) (ht : (cfg0.win 6).flush t = true) :
    (dats m 0 c).flushed 6 t = ((cfg0.win 6).blk t).view.read (Elt Ideal) (acc6 m c) := by
  have h : t.val % 64 = 63 := (flush0_6 t).mp ht
  have hN : t.val < 64 := lt_of_lt_of_eq t.isLt N_0
  have ht63 : t.val = 63 := by omega
  show (cfg0.win 6).cut (grid0.coords t) ((dats m 0 c).after 6 t) = _
  rw [after0_6, outsAt0_congr m c ht63 t.isLt h63]
  unfold acc6
  exact whole_block6 t _

theorem cover6 (i : S1x128.Idx) : ∃ t : Fin cfg0.N, (cfg0.win 6).flush t = true ∧ i ∈ ((cfg0.win 6).blk t).view.set := by
  refine ⟨⟨63, h63⟩, (flush0_6 _).mpr rfl, ?_⟩
  show i ∈ ((View.whole main_v0_2).slice (win0_6.rect ⟨63, h63⟩)).set
  rw [View.set_slice_whole, Rect.mem_set_unit]
  obtain ⟨-, -, -, -, e0, e1⟩ := idx_out ⟨63, h63⟩
  intro a
  match a with
  | ⟨0, _⟩ => show win0_6.index ⟨63, h63⟩ (0 : Fin 2) * 1 ≤ (i 0).val ∧ (i 0).val < win0_6.index ⟨63, h63⟩ (0 : Fin 2) * 1 + 1; rw [e0]; have hi : (i 0).val < 1 := (i 0).isLt; exact ⟨Nat.zero_le _, by omega⟩
  | ⟨1, _⟩ => show win0_6.index ⟨63, h63⟩ (1 : Fin 2) * 128 ≤ (i 1).val ∧ (i 1).val < win0_6.index ⟨63, h63⟩ (1 : Fin 2) * 128 + 128; rw [e1]; have hi : (i 1).val < 128 := (i 1).isLt; exact ⟨Nat.zero_le _, by omega⟩

theorem final6 (c : Dev nD) : (dats m 0 c).arrAt 6 cfg0.N = acc6 m c :=
  (dats m 0 c).arrAt_eq_of_cover 6 (acc6 m c) (fun t ht => flushed6_eq m c t ht) (cover6)

/-! ## The sums over the grid are the sums over all pairs of rows -/

theorem sum_g4 (c : Dev nD) : ∑ t ∈ Finset.range (63 + 1), g4 m c t
    = SS (m ((c : Thread nD τ).loc main_arg0)) (m ((c : Thread nD τ).loc main_arg0)) := by
  rw [← Fin.sum_univ_eq_sum_range (g4 m c) 64]
  unfold SS
  show _ = ∑ a : Fin 8192, ∑ b : Fin 8192, pairE (X m c a) (X m c b)
  rw [sum_tiles (fun i k => pairE (X m c i) (X m c k))]
  refine Finset.sum_congr rfl fun t _ => ?_
  unfold g4
  rw [dif_pos (lt_of_lt_of_eq t.isLt N_0.symm)]
  unfold tileSum
  refine Finset.sum_congr rfl fun r _ => Finset.sum_congr rfl fun cc _ => ?_
  rw [iblk0_row, iblk1_row]

theorem sum_g5 (c : Dev nD) : ∑ t ∈ Finset.range (63 + 1), g5 m c t
    = SS (m ((c : Thread nD τ).loc main_arg1)) (m ((c : Thread nD τ).loc main_arg1)) := by
  rw [← Fin.sum_univ_eq_sum_range (g5 m c) 64]
  unfold SS
  show _ = ∑ a : Fin 8192, ∑ b : Fin 8192, pairE (Y m c a) (Y m c b)
  rw [sum_tiles (fun i k => pairE (Y m c i) (Y m c k))]
  refine Finset.sum_congr rfl fun t _ => ?_
  unfold g5
  rw [dif_pos (lt_of_lt_of_eq t.isLt N_0.symm)]
  unfold tileSum
  refine Finset.sum_congr rfl fun r _ => Finset.sum_congr rfl fun cc _ => ?_
  rw [iblk2_row, iblk3_row]

theorem sum_g6 (c : Dev nD) : ∑ t ∈ Finset.range (63 + 1), g6 m c t
    = SS (m ((c : Thread nD τ).loc main_arg0)) (m ((c : Thread nD τ).loc main_arg1)) := by
  rw [← Fin.sum_univ_eq_sum_range (g6 m c) 64]
  unfold SS
  show _ = ∑ a : Fin 8192, ∑ b : Fin 8192, pairE (X m c a) (Y m c b)
  rw [sum_tiles (fun i k => pairE (X m c i) (Y m c k))]
  refine Finset.sum_congr rfl fun t _ => ?_
  unfold g6
  rw [dif_pos (lt_of_lt_of_eq t.isLt N_0.symm)]
  unfold tileSum
  refine Finset.sum_congr rfl fun r _ => Finset.sum_congr rfl fun cc _ => ?_
  rw [iblk0_row, iblk3_row]

/-! ## The host operations -/

/-- Lane 0 of a 1 x 128 array, sliced and reshaped to a scalar. -/
theorem lane0 (A : S1x128.Idx → EReal) (i : S_.Idx) :
    shapeCast S_ (extractStridedSlice S1x1 ![0, 0] A slices_S1x128_S1x1_0_0) shapeCasts_S1x1_S_ i = A (ix2 (0 : Fin 1) (0 : Fin 128)) := by
  refine (shapeCast_apply _ shapeCasts_S1x1_S_ i (ix2 (0 : Fin 1) (0 : Fin 1))
    ((Nat.lt_one_iff.mp (Fin.isLt _)).trans (Nat.lt_one_iff.mp (Fin.isLt _)).symm)).trans ?_
  exact extractStridedSlice_apply ![0, 0] A slices_S1x128_S1x1_0_0 (ix2 (0 : Fin 1) (0 : Fin 1)) (ix2 (0 : Fin 1) (0 : Fin 128))
    (fun a => by match a with | ⟨0, _⟩ => rfl | ⟨1, _⟩ => rfl)

/-- The three result arrays after the region, as arrays of extended reals. -/
def A4 (c : Dev nD) : S1x128.Idx → EReal := (dats m 0 c).arrAt 4 cfg0.N
def A5 (c : Dev nD) : S1x128.Idx → EReal := (dats m 0 c).arrAt 5 cfg0.N
def A6 (c : Dev nD) : S1x128.Idx → EReal := (dats m 0 c).arrAt 6 cfg0.N

/-- The result buffer after the host operations, from the three result arrays. -/
theorem W2_v10 (c : Dev nD) (i : S_.Idx) :
    (W2 m ρ c (Proc.devRef .tc main_v10) : S_.Idx → EReal) i
      = Ideal.div ((A4 m c (ix2 (0 : Fin 1) (0 : Fin 128)) + A5 m c (ix2 (0 : Fin 1) (0 : Fin 128)))
          - two * A6 m c (ix2 (0 : Fin 1) (0 : Fin 128))) c26 := by
  have e : (W2 m ρ c (Proc.devRef .tc main_v10) : S_.Idx → EReal)
      = Host.divf (F := Ideal) (subf (addf
          (shapeCast S_ (extractStridedSlice S1x1 ![0, 0] (A4 m c) slices_S1x128_S1x1_0_0) shapeCasts_S1x1_S_)
          (shapeCast S_ (extractStridedSlice S1x1 ![0, 0] (A5 m c) slices_S1x128_S1x1_0_0) shapeCasts_S1x1_S_))
          (mulf (constant (F := Ideal) S_ .f32 0x40000000#32)
            (shapeCast S_ (extractStridedSlice S1x1 ![0, 0] (A6 m c) slices_S1x128_S1x1_0_0) shapeCasts_S1x1_S_)))
          (constant (F := Ideal) S_ .f32 0x4C800000#32) := by
    show StableHlo.after hostOps1 (W1 m ρ c) (Proc.devRef .tc main_v10) = _
    after_results
    rw [W1_v0_0, W1_v0_1, W1_v0_2]
    rfl
  rw [e]
  show Ideal.div ((shapeCast S_ (extractStridedSlice S1x1 ![0, 0] (A4 m c) slices_S1x128_S1x1_0_0) shapeCasts_S1x1_S_ i
      + shapeCast S_ (extractStridedSlice S1x1 ![0, 0] (A5 m c) slices_S1x128_S1x1_0_0) shapeCasts_S1x1_S_ i)
      - Ideal.ofBits .f32 0x40000000#32
        * shapeCast S_ (extractStridedSlice S1x1 ![0, 0] (A6 m c) slices_S1x128_S1x1_0_0) shapeCasts_S1x1_S_ i)
      (Ideal.ofBits .f32 0x4C800000#32) = _
  rw [lane0, lane0, lane0]
  rfl

/-- THE KERNEL PROGRAM'S RESULT is the common function of the two argument arrays. -/
theorem kernel_value (c : Dev nD) (i : S_.Idx) :
    (W2 m ρ c (Proc.devRef .tc main_v10) : S_.Idx → EReal) i
      = G (m ((c : Thread nD τ).loc main_arg0)) (m ((c : Thread nD τ).loc main_arg1)) := by
  rw [W2_v10]
  unfold A4 A5 A6
  rw [final4, final5, final6]
  unfold acc4 acc5 acc6
  rw [(acc_apply m c 63 h63 _).1, (acc_apply m c 63 h63 _).2.1, (acc_apply m c 63 h63 _).2.2, sum_g4, sum_g5, sum_g6]
  rfl

end Cert.KernelIdeal.Hand

end
-- ==== Proof.RefG.lean ====
/-
  The reference program's result as a function of the two argument arrays, over the extended reals.

  Each of its three matrices holds, at (a, b), the term of row a of one array and row b of another:
  exp(-(|u|^2 + |v|^2 - 2 u.v) / 65536), the squared norms and the inner product each a sum over the 256 entries.
  Each mean is the matrix's sum over all 8192 x 8192 entries divided by 2^26, and the result is
  mean_xx + mean_yy - 2 mean_xy.
-/
import proofs.«179846_j74603581931591_1_alg».proof.Proof.Gen.ReferenceIdeal.Read
import proofs.«179846_j74603581931591_1_alg».proof.Proof.Spec

set_option maxRecDepth 16384

noncomputable section

namespace Cert.ReferenceIdeal.RefG

open Cert.ReferenceIdeal Cert.ReferenceIdeal.Gen Cert.ReferenceIdeal.Read Cert.Spec
open Idealize.ShloMosaic Idealize.ShloMosaic.ValueIdx

theorem k17 (x0 : (⟨S8192x256, .f32⟩ : BufTy).Contents (Elt Ideal)) (a b : Fin 8192) :
    val_main_v17 (F := Ideal) x0 (ix2 a b) = pairE (fun d => x0 (ix2 a d)) (fun d => x0 (ix2 b d)) := by
  have e1 : ∀ k, idx_main_v1 (idx_main_v2 (idx_main_v6 (ix2 a b))) k = ix2 a k :=
    fun k => funext fun ax => Fin.ext (by match ax with | ⟨0, _⟩ => rfl | ⟨1, _⟩ => rfl)
  have e4 : ∀ k, idx_main_v4 (idx_main_v5 (idx_main_v7 (ix2 a b))) k = ix2 b k :=
    fun k => funext fun ax => Fin.ext (by match ax with | ⟨0, _⟩ => rfl | ⟨1, _⟩ => rfl)
  have el : ∀ k, lidx_main_v10 (ix2 a b) k = ix2 a k :=
    fun k => funext fun ax => Fin.ext (by match ax with | ⟨0, _⟩ => rfl | ⟨1, _⟩ => rfl)
  have er : ∀ k, idx_main_v9 (ridx_main_v10 (ix2 a b) k) = ix2 b k :=
    fun k => funext fun ax => Fin.ext (by match ax with | ⟨0, _⟩ => rfl | ⟨1, _⟩ => rfl)
  rw [val_main_v17_apply, val_main_v16_apply, val_main_v15_apply, val_main_cst_2_apply, val_main_v14_apply, val_main_v13_apply,
    val_main_v8_apply, val_main_v6_apply, val_main_v2_apply, val_main_v1_apply, val_main_cst_apply,
    val_main_v7_apply, val_main_v5_apply, val_main_v4_apply, val_main_cst_0_apply,
    val_main_v12_apply, val_main_v11_apply, val_main_cst_1_apply, val_main_v10_apply]
  simp only [val_main_v0_apply, val_main_v3_apply, val_main_v9_apply, e1, e4, el, er]
  simp only [Ideal.hostUnary_exp_def, Ideal.hostDivf_def, Ideal.hostNegf_def, Ideal.negf_def, Ideal.subf_def, Ideal.addf_def,
    Ideal.mulf_def, Ideal.ofBits_def, Ideal.ofBits_zero_f32]
  exact pairE_ref _ _

theorem k35 (x1 : (⟨S8192x256, .f32⟩ : BufTy).Contents (Elt Ideal)) (a b : Fin 8192) :
    val_main_v35 (F := Ideal) x1 (ix2 a b) = pairE (fun d => x1 (ix2 a d)) (fun d => x1 (ix2 b d)) := by
  have e1 : ∀ k, idx_main_v19 (idx_main_v20 (idx_main_v24 (ix2 a b))) k = ix2 a k :=
    fun k => funext fun ax => Fin.ext (by match ax with | ⟨0, _⟩ => rfl | ⟨1, _⟩ => rfl)
  have e4 : ∀ k, idx_main_v22 (idx_main_v23 (idx_main_v25 (ix2 a b))) k = ix2 b k :=
    fun k => funext fun ax => Fin.ext (by match ax with | ⟨0, _⟩ => rfl | ⟨1, _⟩ => rfl)
  have el : ∀ k, lidx_main_v28 (ix2 a b) k = ix2 a k :=
    fun k => funext fun ax => Fin.ext (by match ax with | ⟨0, _⟩ => rfl | ⟨1, _⟩ => rfl)
  have er : ∀ k, idx_main_v27 (ridx_main_v28 (ix2 a b) k) = ix2 b k :=
    fun k => funext fun ax => Fin.ext (by match ax with | ⟨0, _⟩ => rfl | ⟨1, _⟩ => rfl)
  rw [val_main_v35_apply, val_main_v34_apply, val_main_v33_apply, val_main_cst_6_apply, val_main_v32_apply, val_main_v31_apply,
    val_main_v26_apply, val_main_v24_apply, val_main_v20_apply, val_main_v19_apply, val_main_cst_3_apply,
    val_main_v25_apply, val_main_v23_apply, val_main_v22_apply, val_main_cst_4_apply,
    val_main_v30_apply, val_main_v29_apply, val_main_cst_5_apply, val_main_v28_apply]
  simp only [val_main_v18_apply, val_main_v21_apply, val_main_v27_apply, e1, e4, el, er]
  simp only [Ideal.hostUnary_exp_def, Ideal.hostDivf_def, Ideal.hostNegf_def, Ideal.negf_def, Ideal.subf_def, Ideal.addf_def,
    Ideal.mulf_def, Ideal.ofBits_def, Ideal.ofBits_zero_f32]
  exact pairE_ref _ _

theorem k53 (x0 x1 : (⟨S8192x256, .f32⟩ : BufTy).Contents (Elt Ideal)) (a b : Fin 8192) :
    val_main_v53 (F := Ideal) x0 x1 (ix2 a b) = pairE (fun d => x0 (ix2 a d)) (fun d => x1 (ix2 b d)) := by
  have e1 : ∀ k, idx_main_v37 (idx_main_v38 (idx_main_v42 (ix2 a b))) k = ix2 a k :=
    fun k => funext fun ax => Fin.ext (by match ax with | ⟨0, _⟩ => rfl | ⟨1, _⟩ => rfl)
  have e4 : ∀ k, idx_main_v40 (idx_main_v41 (idx_main_v43 (ix2 a b))) k = ix2 b k :=
    fun k => funext fun ax => Fin.ext (by match ax with | ⟨0, _⟩ => rfl | ⟨1, _⟩ => rfl)
  have el : ∀ k, lidx_main_v46 (ix2 a b) k = ix2 a k :=
    fun k => funext fun ax => Fin.ext (by match ax with | ⟨0, _⟩ => rfl | ⟨1, _⟩ => rfl)
  have er : ∀ k, idx_main_v45 (ridx_main_v46 (ix2 a b) k) = ix2 b k :=
    fun k => funext fun ax => Fin.ext (by match ax with | ⟨0, _⟩ => rfl | ⟨1, _⟩ => rfl)
  rw [val_main_v53_apply, val_main_v52_apply, val_main_v51_apply, val_main_cst_10_apply, val_main_v50_apply, val_main_v49_apply,
    val_main_v44_apply, val_main_v42_apply, val_main_v38_apply, val_main_v37_apply, val_main_cst_7_apply,
    val_main_v43_apply, val_main_v41_apply, val_main_v40_apply, val_main_cst_8_apply,
    val_main_v48_apply, val_main_v47_apply, val_main_cst_9_apply, val_main_v46_apply]
  simp only [val_main_v36_apply, val_main_v39_apply, val_main_v45_apply, e1, e4, el, er]
  simp only [Ideal.hostUnary_exp_def, Ideal.hostDivf_def, Ideal.hostNegf_def, Ideal.negf_def, Ideal.subf_def, Ideal.addf_def,
    Ideal.mulf_def, Ideal.ofBits_def, Ideal.ofBits_zero_f32]
  exact pairE_ref _ _

/-- The reference's result is `G` of the arguments. -/
theorem ref_eq (x0 x1 : (⟨S8192x256, .f32⟩ : BufTy).Contents (Elt Ideal)) (i : S_.Idx) :
    val_main_v62 (F := Ideal) x0 x1 i = G x0 x1 := by
  rw [val_main_v62_apply, val_main_v58_apply, val_main_v55_apply, val_main_v57_apply, val_main_v61_apply, val_main_v60_apply,
    val_main_v54_apply, val_main_v56_apply, val_main_v59_apply, val_main_cst_11_apply, val_main_cst_13_apply, val_main_cst_15_apply,
    val_main_cst_12_apply, val_main_cst_14_apply, val_main_cst_16_apply, val_main_cst_17_apply]
  rw [sum_idx2, sum_idx2, sum_idx2]
  simp only [k17, k35, k53]
  show (Ideal.div (Ideal.ofBits .f32 0x00000000#32 + SS x0 x0) c26 + Ideal.div (Ideal.ofBits .f32 0x00000000#32 + SS x1 x1) c26)
    - two * Ideal.div (Ideal.ofBits .f32 0x00000000#32 + SS x0 x1) c26 = G x0 x1
  rw [Ideal.ofBits_zero_f32, zero_add, zero_add, zero_add]
  exact (combine _ _ _).symm

end Cert.ReferenceIdeal.RefG

end
-- ==== Proof.lean ====
/-
  Two programs computing the maximum-mean-discrepancy statistic of two 8192 x 256 arrays under a Gaussian kernel
  are equal over the extended reals.

  The kernel program tiles the 8192 x 8192 pairs of rows into an 8 x 8 grid; at each tile it forms the 1024 x 1024 matrix
  exp(-(|a|^2 + |b|^2 - 2 a.b) 2^-16) for three pairings of row blocks, sums it, and adds the sum to one of three accumulators,
  cleared at the first tile; the host then forms (s_xx + s_yy - 2 s_xy) / 2^26. The reference forms the three 8192 x 8192
  matrices whole, with a division by 65536 in place of the product with 2^-16, takes each one's mean and combines the means.
  Both are the same function of the arguments: 2^-16 is exactly 1/65536; a finite sum of extended reals may be regrouped
  by tiles; and division by the positive real 2^26 distributes over the combination. None of this needs the inputs
  finite.

  The frames: the kernel program's region reads each argument array through two windows, so each array's ownership is
  split in halves between its two windows for the region and put back after it; the three accumulators carry their running
  sums from tile to tile and are written back once, after the last tile; twelve host operations follow. The reference is a
  straight line of host operations.
-/
import proofs.«179846_j74603581931591_1_alg».proof.Defs
import proofs.«179846_j74603581931591_1_alg».proof.Proof.Gen.Kernel
import proofs.«179846_j74603581931591_1_alg».proof.Proof.Gen.KernelIdeal
import proofs.«179846_j74603581931591_1_alg».proof.Proof.Gen.ReferenceIdeal
import proofs.«179846_j74603581931591_1_alg».proof.Proof.Gen.Pre_finite_inputs
import proofs.«179846_j74603581931591_1_alg».proof.Proof.Gen.ReferenceIdeal.Run
import proofs.«179846_j74603581931591_1_alg».proof.Proof.KFrame
import proofs.«179846_j74603581931591_1_alg».proof.Proof.KIFrame
import proofs.«179846_j74603581931591_1_alg».proof.Proof.KIFinal
import proofs.«179846_j74603581931591_1_alg».proof.Proof.RefG
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text. -/
theorem preserves : Cert.preserves_Kernel_KernelIdeal := trivial

/-- Both programs end with the common function of the arguments in their result. -/
theorem algebraic : Cert.algebraic_KernelIdeal_ReferenceIdeal := by
  intro m ρ m' ρ' _ hagree
  refine ⟨fun c => fun _ => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main (F := Ideal) m ρ)
    · exact (h c _ (Cert.KernelIdeal.Hand.mem_uc Cert.KernelIdeal.main_v10 (by decide))).trans
        (funext fun i => Cert.KernelIdeal.Hand.kernel_value m ρ c i)
    · exact (h c _ (Cert.KernelIdeal.Hand.mem_uc Cert.KernelIdeal.main_arg0 (by decide))).trans (Cert.KernelIdeal.Hand.W2_main_arg0 m ρ c)
    · exact (h c _ (Cert.KernelIdeal.Hand.mem_uc Cert.KernelIdeal.main_arg1 (by decide))).trans (Cert.KernelIdeal.Hand.W2_main_arg1 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq, (hagree c).1, (hagree c).2]
    exact funext fun i => Cert.ReferenceIdeal.RefG.ref_eq _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
